-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x1024 : Shape := ⟨2, ![1024, 1024]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x2048x1024 .f32) (main_arg1 : FVec F S8x2048x1024 .f32) (main_arg2 : FVec F S8x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x2048x1024 : Shape := ⟨3, ![8, 2048, 1024]⟩
abbrev S1024x1024 : Shape := ⟨2, ![1024, 1024]⟩
abbrev S1024 : Shape := ⟨1, ![1024]⟩
abbrev S1x1024 : Shape := ⟨2, ![1, 1024]⟩
abbrev S8x2048x2048 : Shape := ⟨3, ![8, 2048, 2048]⟩
abbrev S1x256x1024 : Shape := ⟨3, ![1, 256, 1024]⟩
abbrev S1x2048x1024 : Shape := ⟨3, ![1, 2048, 1024]⟩
abbrev S1x2048x256 : Shape := ⟨3, ![1, 2048, 256]⟩
abbrev S2048x1024 : Shape := ⟨2, ![2048, 1024]⟩
abbrev S1x512x1024 : Shape := ⟨3, ![1, 512, 1024]⟩
abbrev S512x1024 : Shape := ⟨2, ![512, 1024]⟩
abbrev S256x1024 : Shape := ⟨2, ![256, 1024]⟩
abbrev S2048x256 : Shape := ⟨2, ![2048, 256]⟩
abbrev S256 : Shape := ⟨1, ![256]⟩
abbrev S1x256 : Shape := ⟨2, ![1, 256]⟩

abbrev nBuf : Space → Nat
  | .hbm => 17
  | .vmem => 16
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S8x2048x1024, .f32⟩
  | .hbm, ⟨16, _⟩ => ⟨S8x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1x2048x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x2048x256, .f32⟩
  | .local _ .vmem, ⟨13, _⟩ => ⟨S1x2048x256, .f32⟩
  | .local _ .vmem, ⟨14, _⟩ => ⟨S2048x1024, .bf16⟩
  | .local _ .vmem, ⟨15, _⟩ => ⟨S2048x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x2048x1024_S1x512x1024_0_0_0 : ∀ a, (![0, 0, 0] : Fin 3 → Nat) a + S1x512x1024.size a ≤ S1x2048x1024.size a
  h_S1x512x1024 : 0 < S1x512x1024.numel
  shapeCasts_S1x512x1024_S512x1024 : S1x512x1024.ShapeCasts S512x1024
  broadcasts_S1x1024_S512x1024 : S1x1024.Broadcasts S512x1024
  inb_S2048x1024_S512x1024_0_0 : ∀ a, (![0, 0] : Fin 2 → Nat) a + S512x1024.size a ≤ S2048x1024.size a
  h_S512x1024 : 0 < S512x1024.numel
  shapeCasts_S512x1024_S512x1024 : S512x1024.ShapeCasts S512x1024
  packedbf16_S2048x1024_S512x1024_0_0 : (Rect.unit (s := S2048x1024) ![0, 0] S512x1024.size inb_S2048x1024_S512x1024_0_0).PackedRows (EltTy.packing .bf16)
  inb_S1x2048x1024_S1x512x1024_0_512_0 : ∀ a, (![0, 512, 0] : Fin 3 → Nat) a + S1x512x1024.size a ≤ S1x2048x1024.size a
  inb_S2048x1024_S512x1024_512_0 : ∀ a, (![512, 0] : Fin 2 → Nat) a + S512x1024.size a ≤ S2048x1024.size a
  packedbf16_S2048x1024_S512x1024_512_0 : (Rect.unit (s := S2048x1024) ![512, 0] S512x1024.size inb_S2048x1024_S512x1024_512_0).PackedRows (EltTy.packing .bf16)
  inb_S1x2048x1024_S1x512x1024_0_1024_0 : ∀ a, (![0, 1024, 0] : Fin 3 → Nat) a + S1x512x1024.size a ≤ S1x2048x1024.size a
  inb_S2048x1024_S512x1024_1024_0 : ∀ a, (![1024, 0] : Fin 2 → Nat) a + S512x1024.size a ≤ S2048x1024.size a
  packedbf16_S2048x1024_S512x1024_1024_0 : (Rect.unit (s := S2048x1024) ![1024, 0] S512x1024.size inb_S2048x1024_S512x1024_1024_0).PackedRows (EltTy.packing .bf16)
  inb_S1x2048x1024_S1x512x1024_0_1536_0 : ∀ a, (![0, 1536, 0] : Fin 3 → Nat) a + S1x512x1024.size a ≤ S1x2048x1024.size a
  inb_S2048x1024_S512x1024_1536_0 : ∀ a, (![1536, 0] : Fin 2 → Nat) a + S512x1024.size a ≤ S2048x1024.size a
  packedbf16_S2048x1024_S512x1024_1536_0 : (Rect.unit (s := S2048x1024) ![1536, 0] S512x1024.size inb_S2048x1024_S512x1024_1536_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  broadcasts_S1x1024_S256x1024 : S1x1024.Broadcasts S256x1024
  inb_S2048x1024_S2048x1024_0_0 : ∀ a, (![0, 0] : Fin 2 → Nat) a + S2048x1024.size a ≤ S2048x1024.size a
  h_S2048x1024 : 0 < S2048x1024.numel
  reduces_S2048x256_S256 : S2048x256.Reduces [0] S256
  shapeCasts_S256_S1x256 : S256.ShapeCasts S1x256
  broadcasts_S1x256_S2048x256 : S1x256.Broadcasts S2048x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  shapeCasts_S256x1024_S1x256x1024 : S256x1024.ShapeCasts S1x256x1024
  dot_S512x1024_S1024x1024_S512x1024_1_1_0_0_n_n_wf : DotDims.WF S512x1024 S1024x1024 S512x1024 [1] [1] [0] [0] [] []
  dot_S256x1024_S1024x1024_S256x1024_1_1_0_0_n_n_wf : DotDims.WF S256x1024 S1024x1024 S256x1024 [1] [1] [0] [0] [] []
  dot_S2048x1024_S256x1024_S2048x256_1_1_0_0_n_n_wf : DotDims.WF S2048x1024 S256x1024 S2048x256 [1] [1] [0] [0] [] []
  dot_S2048x256_S2048x1024_S256x1024_0_0_1_1_n_n_wf : DotDims.WF S2048x256 S2048x1024 S256x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .f32 = 32 ∨ (Rect.block (s := S8x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x1024.size a
  hwx0_1 : ∀ i : grid0.Coords, EltTy.bits .f32 = 32 ∨ (Rect.block (s := S8x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S8x2048x1024.size a
  hwx0_2 : ∀ i : grid0.Coords, EltTy.bits .f32 = 32 ∨ (Rect.block (s := S8x2048x1024) S1x2048x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x256x1024.size a ≤ S8x2048x1024.size a
  hwx0_9 : ∀ i : grid0.Coords, EltTy.bits .f32 = 32 ∨ (Rect.block (s := S8x2048x1024) S1x256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x2048x256.size a ≤ S8x2048x2048.size a
  hwx0_10 : ∀ i : grid0.Coords, EltTy.bits .f32 = 32 ∨ (Rect.block (s := S8x2048x2048) S1x2048x256.size (cc0_transform_10 i) (hinb0_10 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x256_S2048x1024_S256x1024_0_0_1_1_n_n : DotDims S2048x256 S2048x1024 S256x1024 where
  lhsContracting := [0]
  rhsContracting := [0]
  lhsNonContracting := [1]
  rhsNonContracting := [1]
  lhsBatch := []
  rhsBatch := []
  wf := dot_S2048x256_S2048x1024_S256x1024_0_0_1_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S1x256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S1x2048x256.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x1024 : Shape := ⟨2, ![1024, 1024]⟩
abbrev S1024 : Shape := ⟨1, ![1024]⟩
abbrev S1x1x1024 : Shape := ⟨3, ![1, 1, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8x2048x1024, .f32⟩
  | .hbm, ⟨10, _⟩ => ⟨S1x1x1024, .f32⟩
  | .hbm, ⟨11, _⟩ => ⟨S8x2048x1024, .f32⟩
  | .hbm, ⟨12, _⟩ => ⟨S8x2048x1024, .f32⟩
  | .hbm, ⟨13, _⟩ => ⟨S8x2048x1024, .f32⟩
  | .hbm, ⟨14, _⟩ => ⟨S1x1x1024, .f32⟩
  | .hbm, ⟨15, _⟩ => ⟨S8x2048x1024, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S8x2048x2048, .f32⟩
  | .hbm, ⟨22, _⟩ => ⟨S_, .f32⟩
  | .hbm, ⟨23, _⟩ => ⟨S8x2048x2048, .f32⟩
  | .hbm, ⟨24, _⟩ => ⟨S8x2048x2048, .f32⟩
  | .hbm, ⟨25, _⟩ => ⟨S_, .f32⟩
  | .hbm, ⟨26, _⟩ => ⟨S8x2048, .f32⟩
  | .hbm, ⟨27, _⟩ => ⟨S_, .f32⟩
  | .hbm, ⟨28, _⟩ => ⟨S8x2048, .f32⟩
  | .hbm, ⟨29, _⟩ => ⟨S8x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S_, .f32⟩
  | .hbm, ⟨35, _⟩ => ⟨S8x2048, .f32⟩
  | .hbm, ⟨36, _⟩ => ⟨S8x1x2048, .f32⟩
  | .hbm, ⟨37, _⟩ => ⟨S8x2048x2048, .f32⟩
  | .hbm, ⟨38, _⟩ => ⟨S8x2048x2048, .f32⟩
  | .hbm, ⟨39, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x2048x1024_0_1_2 : S1x1x1024.BroadcastsInDim S8x2048x1024 (![0, 1, 2] : Fin 3 → Fin S8x2048x1024.rank)
  bcast_S_S8x2048x2048 : S_.BroadcastsInDim S8x2048x2048 (![] : Fin 0 → Fin S8x2048x2048.rank)
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S1024x1024_S8x2048x1024_2_1_01_0_n_n_wf : DotDims.WF S8x2048x1024 S1024x1024 S8x2048x1024 [2] [1] [0, 1] [0] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_1_1_2_2_0_0_wf : DotDims.WF S8x2048x2048 S8x2048x1024 S8x2048x1024 [1] [1] [2] [2] [0] [0]

variable [Facts₀]

def dot_S8x2048x1024_S1024x1024_S8x2048x1024_2_1_01_0_n_n : DotDims S8x2048x1024 S1024x1024 S8x2048x1024 where
  lhsContracting := [2]
  rhsContracting := [1]
  lhsNonContracting := [0, 1]
  rhsNonContracting := [0]
  lhsBatch := []
  rhsBatch := []
  wf := dot_S8x2048x1024_S1024x1024_S8x2048x1024_2_1_01_0_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_1_1_2_2_0_0 : DotDims S8x2048x2048 S8x2048x1024 S8x2048x1024 where
  lhsContracting := [1]
  rhsContracting := [1]
  lhsNonContracting := [2]
  rhsNonContracting := [2]
  lhsBatch := [0]
  rhsBatch := [0]
  wf := dot_S8x2048x2048_S8x2048x1024_S8x2048x1024_1_1_2_2_0_0_wf

class Facts : Prop extends Facts₀ where

variable [Facts]
-- ==== Proof.Spec.lean ====
/-
  Single-head scaled-dot attention with its three linear layers, stated row by row over the extended reals.

  A linear layer sends a row `x` to `(∑ h, x h · W o h) + b o`. A score is the inner product of a projected key row
  and a projected query row times a fixed scale. For one query the scores over all keys are normalised by a softmax:
  subtract their maximum, exponentiate, divide by the sum of the exponentials. The context is the sum over the keys
  of the normalised weights times the projected value rows.
-/
import Idealize.ShloMosaic.PureOps.Ideal
import Idealize.ShloMosaic.PureOps.Ideal.Laws
import Idealize.ShloMosaic.Lib.ValueIdx

noncomputable section

namespace Attn

open Idealize.ShloMosaic Idealize.ShloMosaic.ValueIdx

/-- The word of `-∞`, the value a maximum starts from. -/
abbrev negInf : EReal := Ideal.ofBits .f32 0xFF800000#32
/-- The word of the scale `1/32`. -/
abbrev scale : EReal := Ideal.ofBits .f32 0x3D000000#32

/-- A maximum from `-∞` leaves its other argument. -/
theorem max_negInf (y : EReal) : max negInf y = y := by
  show max (Ideal.ofBits .f32 0xFF800000#32) y = y
  simp [Ideal.ofBits, Ideal.ieee]

/-- One output of a linear layer: `(∑ h, x h · W o h) + b o`. -/
def linRow (x : Fin 1024 → EReal) (W : Fin 1024 → Fin 1024 → EReal) (b : Fin 1024 → EReal) (o : Fin 1024) : EReal :=
  (∑ h : Fin 1024, x h * W o h) + b o

/-- The scaled inner product of a key row and a query row. -/
def scoreOf (k q : Fin 1024 → EReal) : EReal := (∑ h : Fin 1024, k h * q h) * scale

/-- The maximum of a column of scores, from `-∞`. -/
def colMax (f : Fin 2048 → EReal) : EReal := (Finset.univ : Finset (Fin 2048)).fold max negInf f

/-- The softmax of a column of scores at one key. -/
def softmaxCol (f : Fin 2048 → EReal) (s : Fin 2048) : EReal :=
  Ideal.div (Ideal.exp (f s - colMax f)) (∑ s' : Fin 2048, Ideal.exp (f s' - colMax f))

/-- The context: weights times value rows, summed over the keys. -/
def ctxOf (a v : Fin 2048 → EReal) : EReal := ∑ s : Fin 2048, a s * v s

/-! ## The two results as functions of the nine argument arrays -/

abbrev Arr3 := (⟨3, ![8, 2048, 1024]⟩ : Shape).Idx → EReal
abbrev Mat := (⟨2, ![1024, 1024]⟩ : Shape).Idx → EReal
abbrev Row := (⟨1, ![1024]⟩ : Shape).Idx → EReal

/-- A projected row of batch `g`: the linear layer applied to row `s` of `X`. -/
def proj (X : Arr3) (W : Mat) (b : Row) (g : Fin 8) (s : Fin 2048) : Fin 1024 → EReal :=
  linRow (fun h => X (ix3 g s h)) (fun o h => W (ix2 o h)) (fun o => b (ix1 o))

/-- The attention weights: for batch `g` and query `q`, the softmax over the keys of the scaled scores. -/
def attnAt (x0 x1 : Arr3) (x3 : Mat) (x4 : Row) (x5 : Mat) (x6 : Row) (g : Fin 8) (s q : Fin 2048) : EReal :=
  softmaxCol (fun s' => scoreOf (proj x1 x5 x6 g s') (proj x0 x3 x4 g q)) s

/-- The context at batch `g`, query `q`, feature `h`. -/
def ctxAt (x0 x1 x2 : Arr3) (x3 : Mat) (x4 : Row) (x5 : Mat) (x6 : Row) (x7 : Mat) (x8 : Row)
    (g : Fin 8) (q : Fin 2048) (h : Fin 1024) : EReal :=
  ctxOf (fun s => attnAt x0 x1 x3 x4 x5 x6 g s q) (fun s => proj x2 x7 x8 g s h)

/-- The weights array `[8, 2048, 2048]` (batch, key, query). -/
def attnArr (x0 x1 : Arr3) (x3 : Mat) (x4 : Row) (x5 : Mat) (x6 : Row) : (⟨3, ![8, 2048, 2048]⟩ : Shape).Idx → EReal :=
  fun i => attnAt x0 x1 x3 x4 x5 x6 (i 0) (i 1) (i 2)

/-- The context array `[8, 2048, 1024]` (batch, query, feature). -/
def ctxArr (x0 x1 x2 : Arr3) (x3 : Mat) (x4 : Row) (x5 : Mat) (x6 : Row) (x7 : Mat) (x8 : Row) : Arr3 :=
  fun i => ctxAt x0 x1 x2 x3 x4 x5 x6 x7 x8 (i 0) (i 1) (i 2)

end Attn

end
-- ==== Proof.LibTransposedProduct.lean ====
/-
  A matrix product with both operands contracted along their LAST axis, read at an index, over arbitrary sizes.

  For an `[m, k]` operand `A` and an `[n, k]` operand `B` the product entry `(a, b)` is `∑ c, A (a, c) · B (b, c)`:
  `A · Bᵀ`. At the extended reals a kernel's product into a zero accumulator and the host's product of the same
  operands are both this sum.
-/
import Idealize.ShloMosaic.Lib.ValueIdx
import Idealize.ShloMosaic.PureOps.Ideal.Laws

noncomputable section

namespace Cert.Lib.TransposedProduct

open Idealize.ShloMosaic Idealize.ShloMosaic.ValueIdx

variable {m k n : Nat} {φ₁ φ₂ : FTy}

/-- The left operand is read at `(a, c)` and the right one at `(b, c)`, for output index `(a, b)` and contracted
    coordinate `c`. -/
theorem lhsIdx_eq (a : Fin m) (b : Fin n) (c : Fin k) :
    (DotDims.transposedRhs m k n).lhsIdx (ix2 a b) ((contrEquiv1 (DotDims.transposedRhs m k n) k rfl rfl).symm c) = ix2 a c := by
  have c2 := contrEquiv1_symm_val (DotDims.transposedRhs m k n) k rfl rfl c
  funext ax; apply Fin.ext
  match ax with
  | ⟨0, _⟩ => simp [DotDims.lhsIdx, DotDims.transposedRhs]; rfl
  | ⟨1, _⟩ => simp [DotDims.lhsIdx, DotDims.transposedRhs]; exact c2

theorem rhsIdx_eq (a : Fin m) (b : Fin n) (c : Fin k) :
    (DotDims.transposedRhs m k n).rhsIdx (ix2 a b) ((contrEquiv1 (DotDims.transposedRhs m k n) k rfl rfl).symm c) = ix2 b c := by
  have c2 := contrEquiv1_symm_val (DotDims.transposedRhs m k n) k rfl rfl c
  funext ax; apply Fin.ext
  match ax with
  | ⟨0, _⟩ => simp [DotDims.rhsIdx, DotDims.transposedRhs]; rfl
  | ⟨1, _⟩ => simp [DotDims.rhsIdx, DotDims.transposedRhs]; exact c2

/-- A kernel's product into the zero splat, at `(a, b)`: the sum over the contracted coordinate. -/
theorem matmul_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  subst hd
  show FloatOps.matmul _ prec A B (constant ⟨2, ![m, n]⟩ .f32 0x00000000#32) (ix2 a b) = _
  rw [Ideal.matmul_constant_zero_apply, ← Equiv.sum_comp (contrEquiv1 (DotDims.transposedRhs m k n) k rfl rfl).symm]
  refine Finset.sum_congr rfl fun c _ => ?_
  rw [lhsIdx_eq, rhsIdx_eq]

/-- The host's product at `(a, b)`. -/
theorem dotGeneral_apply (d : DotDims ⟨2, ![m, k]⟩ ⟨2, ![n, k]⟩ ⟨2, ![m, n]⟩) (hd : d = DotDims.transposedRhs m k n)
    (prec : Option ContractPrecision) (A : FVec Ideal ⟨2, ![m, k]⟩ φ₁) (B : FVec Ideal ⟨2, ![n, k]⟩ φ₂)
    (a : Fin m) (b : Fin n) :
    Host.dotGeneral d prec A B (ix2 a b) = ∑ c : Fin k, A (ix2 a c) * B (ix2 b c) := by
  subst hd
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  rw [lhsIdx_eq, rhsIdx_eq]

end Cert.Lib.TransposedProduct

end
-- ==== Proof.KPay.lean ====
/-
  The kernel body's arithmetic read at an index, over the extended reals.

  A chunk of 512 key (or value) rows times the transposed weight plus the bias row is the linear layer applied to
  each row. The query tile's 256 rows likewise. The score of key `s` against query `r` of the tile is the scaled
  inner product of the two projected rows; the softmax over the 2048 keys is taken column by column; the context of
  query `r` is the sum over the keys of the weights times the projected value rows.
-/
import proofs.«115553_j50173807952573_2_alg».proof.Proof.Gen.KernelIdeal.Skeleton
import proofs.«115553_j50173807952573_2_alg».proof.Proof.Spec
import proofs.«115553_j50173807952573_2_alg».proof.Proof.LibTransposedProduct
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.KPay

open Cert.KernelIdeal Cert.KernelIdeal.Gen Idealize.ShloMosaic Idealize.ShloMosaic.ValueIdx

/-! ## A chunk of rows through a linear layer -/

/-- 512 rows of a `[1, 2048, 1024]` block's chunk times the transposed weight, plus the bias row. -/
theorem chunk_apply (w : FVec Ideal S1024x1024 .bf16) (bias : FVec Ideal S1x1024 .f32) (x : Vec Ideal S1x512x1024 .f32)
    (r : Fin 512) (o : Fin 1024) :
    addf (matmul dot_S512x1024_S1024x1024_S512x1024_1_1_0_0_n_n none
        (truncf .bf16 (shapeCast S512x1024 x shapeCasts_S1x512x1024_S512x1024) bitsLt_bf16_f32) w
        (constant S512x1024 .f32 0x00000000#32))
      (broadcastTo S512x1024 bias broadcasts_S1x1024_S512x1024) (ix2 r o)
    = Attn.linRow (fun h => x (ix3 (0 : Fin 1) r h)) (fun o h => w (ix2 o h)) (fun o => bias (ix2 (0 : Fin 1) o)) o := by
  rw [addf_apply, Cert.Lib.TransposedProduct.matmul_apply dot_S512x1024_S1024x1024_S512x1024_1_1_0_0_n_n rfl none _ _ r o,
    broadcastTo_1b_ab_apply]
  unfold Attn.linRow
  refine congrArg (· + _) (Finset.sum_congr rfl fun h _ => ?_)
  show shapeCast S512x1024 x _ (ix2 r h) * w (ix2 o h) = x (ix3 (0 : Fin 1) r h) * w (ix2 o h)
  rw [shapeCast_1ab_ab_apply]

/-- The query tile's 256 rows through their linear layer. -/
theorem qrows_apply (w : FVec Ideal S1024x1024 .bf16) (bias : FVec Ideal S1x1024 .f32) (x : Vec Ideal S1x256x1024 .f32)
    (r : Fin 256) (o : Fin 1024) :
    addf (matmul dot_S256x1024_S1024x1024_S256x1024_1_1_0_0_n_n none
        (truncf .bf16 (shapeCast S256x1024 x shapeCasts_S1x256x1024_S256x1024) bitsLt_bf16_f32) w
        (constant S256x1024 .f32 0x00000000#32))
      (broadcastTo S256x1024 bias broadcasts_S1x1024_S256x1024) (ix2 r o)
    = Attn.linRow (fun h => x (ix3 (0 : Fin 1) r h)) (fun o h => w (ix2 o h)) (fun o => bias (ix2 (0 : Fin 1) o)) o := by
  rw [addf_apply, Cert.Lib.TransposedProduct.matmul_apply dot_S256x1024_S1024x1024_S256x1024_1_1_0_0_n_n rfl none _ _ r o,
    broadcastTo_1b_ab_apply]
  unfold Attn.linRow
  refine congrArg (· + _) (Finset.sum_congr rfl fun h _ => ?_)
  show shapeCast S256x1024 x _ (ix2 r h) * w (ix2 o h) = x (ix3 (0 : Fin 1) r h) * w (ix2 o h)
  rw [shapeCast_1ab_ab_apply]

/-! ## The eight stored chunks -/

theorem pay6_apply (v36 : Vec Ideal S1024x1024 .bf16) (v40 : Vec Ideal S1x1024 .f32) (v44 : Vec Ideal S1x512x1024 .f32)
    (r : Fin 512) (o : Fin 1024) :
    k0_pay6 (F := Ideal) v36 v40 v44 (ix2 r o)
      = Attn.linRow (fun h => v44 (ix3 (0 : Fin 1) r h)) (fun o h => v36 (ix2 o h)) (fun o => v40 (ix2 (0 : Fin 1) o)) o := by
  unfold k0_pay6 k0_pay2 k0_pay4
  simp only [shapeCast_self]
  exact chunk_apply v36 v40 v44 r o

theorem pay7_apply (v38 : Vec Ideal S1024x1024 .bf16) (v42 : Vec Ideal S1x1024 .f32) (v54 : Vec Ideal S1x512x1024 .f32)
    (r : Fin 512) (o : Fin 1024) :
    k0_pay7 (F := Ideal) v38 v42 v54 (ix2 r o)
      = Attn.linRow (fun h => v54 (ix3 (0 : Fin 1) r h)) (fun o h => v38 (ix2 o h)) (fun o => v42 (ix2 (0 : Fin 1) o)) o := by
  unfold k0_pay7 k0_pay3 k0_pay5
  simp only [shapeCast_self]
  exact chunk_apply v38 v42 v54 r o

theorem pay98_apply (v36 : Vec Ideal S1024x1024 .bf16) (v40 : Vec Ideal S1x1024 .f32) (v64 : Vec Ideal S1x512x1024 .f32)
    (r : Fin 512) (o : Fin 1024) :
    k0_pay9 (F := Ideal) (k0_pay8 v36 v40 v64) (ix2 r o)
      = Attn.linRow (fun h => v64 (ix3 (0 : Fin 1) r h)) (fun o h => v36 (ix2 o h)) (fun o => v40 (ix2 (0 : Fin 1) o)) o := by
  unfold k0_pay9 k0_pay8 k0_pay2 k0_pay4
  simp only [shapeCast_self]
  exact chunk_apply v36 v40 v64 r o

theorem pay10_apply (v39 : FVec Ideal S1024x1024 .bf16) (v43 : FVec Ideal S1x1024 .f32) (v74 : Vec Ideal S1x512x1024 .f32)
    (r : Fin 512) (o : Fin 1024) :
    k0_pay10 (F := Ideal) v39 v43 v74 (ix2 r o)
      = Attn.linRow (fun h => v74 (ix3 (0 : Fin 1) r h)) (fun o h => v39 (ix2 o h)) (fun o => v43 (ix2 (0 : Fin 1) o)) o := by
  unfold k0_pay10
  simp only [shapeCast_self]
  exact chunk_apply v39 v43 v74 r o

theorem pay11_apply (v37 : FVec Ideal S1024x1024 .bf16) (v41 : FVec Ideal S1x1024 .f32) (v84 : Vec Ideal S1x512x1024 .f32)
    (r : Fin 512) (o : Fin 1024) :
    k0_pay11 (F := Ideal) v37 v41 v84 (ix2 r o)
      = Attn.linRow (fun h => v84 (ix3 (0 : Fin 1) r h)) (fun o h => v37 (ix2 o h)) (fun o => v41 (ix2 (0 : Fin 1) o)) o := by
  unfold k0_pay11
  simp only [shapeCast_self]
  exact chunk_apply v37 v41 v84 r o

theorem pay12_apply (v39 : FVec Ideal S1024x1024 .bf16) (v43 : FVec Ideal S1x1024 .f32) (v94 : Vec Ideal S1x512x1024 .f32)
    (r : Fin 512) (o : Fin 1024) :
    k0_pay12 (F := Ideal) v39 v43 v94 (ix2 r o)
      = Attn.linRow (fun h => v94 (ix3 (0 : Fin 1) r h)) (fun o h => v39 (ix2 o h)) (fun o => v43 (ix2 (0 : Fin 1) o)) o := by
  unfold k0_pay12
  simp only [shapeCast_self]
  exact chunk_apply v39 v43 v94 r o

theorem pay13_apply (v37 : FVec Ideal S1024x1024 .bf16) (v41 : FVec Ideal S1x1024 .f32) (v104 : Vec Ideal S1x512x1024 .f32)
    (r : Fin 512) (o : Fin 1024) :
    k0_pay13 (F := Ideal) v37 v41 v104 (ix2 r o)
      = Attn.linRow (fun h => v104 (ix3 (0 : Fin 1) r h)) (fun o h => v37 (ix2 o h)) (fun o => v41 (ix2 (0 : Fin 1) o)) o := by
  unfold k0_pay13
  simp only [shapeCast_self]
  exact chunk_apply v37 v41 v104 r o

theorem pay14_apply (v39 : FVec Ideal S1024x1024 .bf16) (v43 : FVec Ideal S1x1024 .f32) (v114 : Vec Ideal S1x512x1024 .f32)
    (r : Fin 512) (o : Fin 1024) :
    k0_pay14 (F := Ideal) v39 v43 v114 (ix2 r o)
      = Attn.linRow (fun h => v114 (ix3 (0 : Fin 1) r h)) (fun o h => v39 (ix2 o h)) (fun o => v43 (ix2 (0 : Fin 1) o)) o := by
  unfold k0_pay14
  simp only [shapeCast_self]
  exact chunk_apply v39 v43 v114 r o

/-- The weight and the bias as the first chunk's statements hand them on are the loaded words. -/
theorem pay2_eq (v : Vec Ideal S1024x1024 .bf16) : k0_pay2 (F := Ideal) v = v := shapeCast_self _ _
theorem pay3_eq (v : Vec Ideal S1024x1024 .bf16) : k0_pay3 (F := Ideal) v = v := shapeCast_self _ _
theorem pay4_eq (v : Vec Ideal S1x1024 .f32) : k0_pay4 (F := Ideal) v = v := shapeCast_self _ _
theorem pay5_eq (v : Vec Ideal S1x1024 .f32) : k0_pay5 (F := Ideal) v = v := shapeCast_self _ _

end Cert.KernelIdeal.KPay

end
-- ==== Proof.KSoft.lean ====
/-
  The query tile's scores, their column softmax and the context, read at an index over the extended reals.

  For key `s` and the tile's query `r` the score is the scaled inner product of the stored projected key row and
  the tile's projected query row. Down each column the maximum is a fold of `max` from `-∞` and the normaliser a
  plain sum; both are broadcast back over the rows. The context of query `r` at feature `h` sums, over the keys,
  the weights times the stored projected value rows.
-/
import proofs.«115553_j50173807952573_2_alg».proof.Proof.KPay

noncomputable section

namespace Cert.KernelIdeal.KPay

open Cert.KernelIdeal Cert.KernelIdeal.Gen Idealize.ShloMosaic Idealize.ShloMosaic.ValueIdx

/-! ## The column reductions -/

/-- The reduced index `r` with key `k` put back on the dropped axis is `(k, r)`. -/
theorem lift_col (r : Fin 256) (k : Fin (S2048x256.size 0)) :
    reduces_S2048x256_S256.lift (ix1 r) k = ix2 (⟨k.val, k.isLt⟩ : Fin 2048) r := by
  funext c; apply Fin.ext
  match c with
  | ⟨0, _⟩ => rfl
  | ⟨1, _⟩ => rfl

/-- A column's maximum: the fold of `max` from `-∞` over the 2048 keys. -/
theorem colmax_apply (sc : FVec Ideal S2048x256 .f32) (r : Fin 256) :
    multiReduction .maximumf [0] S256 sc 0xFF800000#32 reduces_S2048x256_S256 (.inl rfl) rfl (ix1 r)
      = Attn.colMax (fun s => sc (ix2 s r)) := by
  refine (Ideal.multiReduction_maximumf_single sc _ reduces_S2048x256_S256 _ _ (ix1 r)).trans ?_
  have hf : (sc ∘ reduces_S2048x256_S256.lift (ix1 r)) = fun s : Fin 2048 => sc (ix2 s r) :=
    funext fun k => congrArg sc (lift_col r k)
  rw [hf]
  rfl

/-- A column's sum over the 2048 keys. -/
theorem colsum_apply (e : FVec Ideal S2048x256 .f32) (r : Fin 256) :
    multiReduction .add [0] S256 e 0x00000000#32 reduces_S2048x256_S256 (.inl rfl) rfl (ix1 r)
      = ∑ s : Fin 2048, e (ix2 s r) := by
  refine (Ideal.multiReduction_add_single e _ reduces_S2048x256_S256 _ _ (ix1 r)).trans ?_
  exact Finset.sum_congr rfl fun k _ => congrArg e (lift_col r k)

/-- A per-column value cast to one row and broadcast down the 2048 rows reads, at `(s, r)`, the value of column `r`. -/
theorem rowbc_apply (v : FVec Ideal S256 .f32) (s : Fin 2048) (r : Fin 256) :
    broadcastTo S2048x256 (shapeCast S1x256 v shapeCasts_S256_S1x256) broadcasts_S1x256_S2048x256 (ix2 s r) = v (ix1 r) := by
  rw [broadcastTo_1b_ab_apply, shapeCast_a_1a_apply]

/-! ## The softmax down the columns -/

/-- The exponentials of the scores less their column's maximum. -/
def expv (sc : FVec Ideal S2048x256 .f32) : FVec Ideal S2048x256 .f32 :=
  exp (subf sc (broadcastTo S2048x256 (shapeCast S1x256
    (multiReduction .maximumf [0] S256 sc 0xFF800000#32 reduces_S2048x256_S256 (.inl rfl) rfl) shapeCasts_S256_S1x256)
    broadcasts_S1x256_S2048x256))

/-- The exponentials over their column's sum. -/
def smv (sc : FVec Ideal S2048x256 .f32) : FVec Ideal S2048x256 .f32 :=
  divf (expv sc) (broadcastTo S2048x256 (shapeCast S1x256
    (multiReduction .add [0] S256 (expv sc) 0x00000000#32 reduces_S2048x256_S256 (.inl rfl) rfl) shapeCasts_S256_S1x256)
    broadcasts_S1x256_S2048x256)

theorem expv_apply (sc : FVec Ideal S2048x256 .f32) (s : Fin 2048) (r : Fin 256) :
    expv sc (ix2 s r) = Ideal.exp (sc (ix2 s r) - Attn.colMax (fun s' => sc (ix2 s' r))) := by
  unfold expv
  show Ideal.exp (sc (ix2 s r) - broadcastTo S2048x256 _ _ (ix2 s r)) = _
  rw [rowbc_apply, colmax_apply]

theorem smv_apply (sc : FVec Ideal S2048x256 .f32) (s : Fin 2048) (r : Fin 256) :
    smv sc (ix2 s r) = Attn.softmaxCol (fun s' => sc (ix2 s' r)) s := by
  unfold smv
  show Ideal.div (expv sc (ix2 s r)) (broadcastTo S2048x256 _ _ (ix2 s r)) = _
  rw [rowbc_apply, colsum_apply]
  simp only [expv_apply]
  rfl

/-! ## The scores of the tile -/

/-- The tile's projected query rows. -/
def qpv (v3 : Vec Ideal S1x256x1024 .f32) (v6 : Vec Ideal S1024x1024 .bf16) (v9 : Vec Ideal S1x1024 .f32) :
    FVec Ideal S256x1024 .f32 :=
  addf (matmul dot_S256x1024_S1024x1024_S256x1024_1_1_0_0_n_n none
      (truncf .bf16 (shapeCast S256x1024 v3 shapeCasts_S1x256x1024_S256x1024) bitsLt_bf16_f32)
      (shapeCast S1024x1024 v6 shapeCasts_S1024x1024_S1024x1024 : FVec Ideal S1024x1024 .bf16)
      (constant S256x1024 .f32 0x00000000#32))
    (broadcastTo S256x1024 (shapeCast S1x1024 v9 shapeCasts_S1x1024_S1x1024) broadcasts_S1x1024_S256x1024)

theorem qpv_apply (v3 : Vec Ideal S1x256x1024 .f32) (v6 : Vec Ideal S1024x1024 .bf16) (v9 : Vec Ideal S1x1024 .f32)
    (r : Fin 256) (o : Fin 1024) :
    qpv v3 v6 v9 (ix2 r o)
      = Attn.linRow (fun h => v3 (ix3 (0 : Fin 1) r h)) (fun o h => v6 (ix2 o h)) (fun o => v9 (ix2 (0 : Fin 1) o)) o := by
  unfold qpv
  simp only [shapeCast_self]
  exact qrows_apply v6 v9 v3 r o

/-- The scaled scores of the 2048 stored key rows against the tile's 256 query rows. -/
def scv (v14 : FVec Ideal S2048x1024 .bf16) (qp : FVec Ideal S256x1024 .f32) : FVec Ideal S2048x256 .f32 :=
  mulf (matmul dot_S2048x1024_S256x1024_S2048x256_1_1_0_0_n_n none v14 (truncf .bf16 qp bitsLt_bf16_f32)
      (constant S2048x256 .f32 0x00000000#32))
    (broadcast S2048x256 (Scalar.ofBits .f32 0x3D000000#32))

theorem scv_apply (v14 : FVec Ideal S2048x1024 .bf16) (qp : FVec Ideal S256x1024 .f32) (s : Fin 2048) (r : Fin 256) :
    scv v14 qp (ix2 s r) = Attn.scoreOf (fun h => v14 (ix2 s h)) (fun h => qp (ix2 r h)) := by
  unfold scv
  rw [mulf_apply, Cert.Lib.TransposedProduct.matmul_apply dot_S2048x1024_S256x1024_S2048x256_1_1_0_0_n_n rfl none
    v14 (truncf .bf16 qp bitsLt_bf16_f32) s r]
  rfl

/-- The body's weights are the column softmax of the tile's scores. -/
theorem pay15_eq (v3 : Vec Ideal S1x256x1024 .f32) (v6 : Vec Ideal S1024x1024 .bf16) (v9 : Vec Ideal S1x1024 .f32)
    (v14 : Vec Ideal S2048x1024 .bf16) : k0_pay15 (F := Ideal) v3 v6 v9 v14 = smv (scv v14 (qpv v3 v6 v9)) := rfl

/-- The weights of the tile at key `s`, query `r`. -/
theorem pay15_apply (v3 : Vec Ideal S1x256x1024 .f32) (v6 : Vec Ideal S1024x1024 .bf16) (v9 : Vec Ideal S1x1024 .f32)
    (v14 : Vec Ideal S2048x1024 .bf16) (s : Fin 2048) (r : Fin 256) :
    k0_pay15 (F := Ideal) v3 v6 v9 v14 (ix2 s r)
      = Attn.softmaxCol (fun s' => Attn.scoreOf (fun h => v14 (ix2 s' h))
          (Attn.linRow (fun h => v3 (ix3 (0 : Fin 1) r h)) (fun o h => v6 (ix2 o h)) (fun o => v9 (ix2 (0 : Fin 1) o)))) s := by
  rw [pay15_eq, smv_apply]
  simp only [scv_apply, qpv_apply]

/-- The stored weights block `[1, 2048, 256]` is the tile's weights. -/
theorem pay16_apply (v3 : Vec Ideal S1x256x1024 .f32) (v6 : Vec Ideal S1024x1024 .bf16) (v9 : Vec Ideal S1x1024 .f32)
    (v14 : Vec Ideal S2048x1024 .bf16) (u : Fin 1) (s : Fin 2048) (r : Fin 256) :
    k0_pay16 (F := Ideal) v3 v6 v9 v14 (ix3 u s r) = k0_pay15 (F := Ideal) v3 v6 v9 v14 (ix2 s r) := by
  unfold k0_pay16
  exact shapeCast_ab_1ab_apply _ _ u s r

/-! ## The context of the tile -/

theorem ctx_lhs_1 (i : S256x1024.Idx) (q : dot_S2048x256_S2048x1024_S256x1024_0_0_1_1_n_n.contr.Idx) :
    (dot_S2048x256_S2048x1024_S256x1024_0_0_1_1_n_n.lhsIdx i q 1).val = (i 0).val := by
  unfold DotDims.lhsIdx
  rw [dif_neg (show ¬(1 : Fin S2048x256.rank) ∈ dot_S2048x256_S2048x1024_S256x1024_0_0_1_1_n_n.lhsBatch by decide),
    dif_pos (show (1 : Fin S2048x256.rank) ∈ dot_S2048x256_S2048x1024_S256x1024_0_0_1_1_n_n.lhsNonContracting by decide)]
  rfl

theorem ctx_rhs_1 (i : S256x1024.Idx) (q : dot_S2048x256_S2048x1024_S256x1024_0_0_1_1_n_n.contr.Idx) :
    (dot_S2048x256_S2048x1024_S256x1024_0_0_1_1_n_n.rhsIdx i q 1).val = (i 1).val := by
  unfold DotDims.rhsIdx
  rw [dif_neg (show ¬(1 : Fin S2048x1024.rank) ∈ dot_S2048x256_S2048x1024_S256x1024_0_0_1_1_n_n.rhsBatch by decide),
    dif_pos (show (1 : Fin S2048x1024.rank) ∈ dot_S2048x256_S2048x1024_S256x1024_0_0_1_1_n_n.rhsNonContracting by decide)]
  rfl

theorem ctx_lhs (r : Fin 256) (h : Fin 1024) (k : Fin 2048) :
    dot_S2048x256_S2048x1024_S256x1024_0_0_1_1_n_n.lhsIdx (ix2 r h)
      ((contrEquiv1 dot_S2048x256_S2048x1024_S256x1024_0_0_1_1_n_n 2048 rfl rfl).symm k) = ix2 k r := by
  have hk := contrEquiv1_symm_val dot_S2048x256_S2048x1024_S256x1024_0_0_1_1_n_n 2048 rfl rfl k
  funext a; apply Fin.ext
  match a with
  | ⟨0, _⟩ => exact (dot_S2048x256_S2048x1024_S256x1024_0_0_1_1_n_n.lhsIdx_val_of_single rfl _ _).trans hk
  | ⟨1, _⟩ => exact ctx_lhs_1 _ _

theorem ctx_rhs (r : Fin 256) (h : Fin 1024) (k : Fin 2048) :
    dot_S2048x256_S2048x1024_S256x1024_0_0_1_1_n_n.rhsIdx (ix2 r h)
      ((contrEquiv1 dot_S2048x256_S2048x1024_S256x1024_0_0_1_1_n_n 2048 rfl rfl).symm k) = ix2 k h := by
  have hk := contrEquiv1_symm_val dot_S2048x256_S2048x1024_S256x1024_0_0_1_1_n_n 2048 rfl rfl k
  funext a; apply Fin.ext
  match a with
  | ⟨0, _⟩ => exact (dot_S2048x256_S2048x1024_S256x1024_0_0_1_1_n_n.rhsIdx_val_of_single rfl _ _).trans hk
  | ⟨1, _⟩ => exact ctx_rhs_1 _ _

/-- The context of the tile's query `r` at feature `h`: the weights against the stored value rows, summed over the keys. -/
theorem pay17_apply (v3 : Vec Ideal S1x256x1024 .f32) (v6 : Vec Ideal S1024x1024 .bf16) (v9 : Vec Ideal S1x1024 .f32)
    (v14 v15 : FVec Ideal S2048x1024 .bf16) (r : Fin 256) (h : Fin 1024) :
    k0_pay17 (F := Ideal) v3 v6 v9 v14 v15 (ix2 r h)
      = Attn.ctxOf (fun s => k0_pay15 (F := Ideal) v3 v6 v9 v14 (ix2 s r)) (fun s => v15 (ix2 s h)) := by
  unfold k0_pay17
  show FloatOps.matmul (φ₁ := .bf16) (φ₂ := .bf16) dot_S2048x256_S2048x1024_S256x1024_0_0_1_1_n_n none _ v15
    (constant S256x1024 .f32 0x00000000#32) (ix2 r h) = _
  rw [Ideal.matmul_constant_zero_apply,
    ← Equiv.sum_comp (contrEquiv1 dot_S2048x256_S2048x1024_S256x1024_0_0_1_1_n_n 2048 rfl rfl).symm]
  unfold Attn.ctxOf
  refine Finset.sum_congr rfl fun k _ => ?_
  rw [ctx_lhs, ctx_rhs]
  rfl

/-- The stored context block `[1, 256, 1024]` is the tile's context. -/
theorem pay1_apply (v32 : FVec Ideal S256x1024 .f32) (u : Fin 1) (r : Fin 256) (h : Fin 1024) :
    k0_pay1 (F := Ideal) v32 (ix3 u r h) = v32 (ix2 r h) := by
  unfold k0_pay1
  exact shapeCast_ab_1ab_apply _ _ u r h

end Cert.KernelIdeal.KPay

end
-- ==== Proof.Pieces.lean ====
/-
  What one run of the body leaves in its buffers, as values.

  At the first query tile of a batch the body fills the two carried buffers, chunk by chunk, with the projected key
  rows and the projected value rows of the batch's block; at every tile it then leaves the tile's attention weights
  and the tile's context in the two output blocks, computed from the tile's query block and from the two carried
  buffers — freshly filled at a first tile, as the tile before left them otherwise.
-/
import proofs.«115553_j50173807952573_2_alg».proof.Proof.Gen.KernelIdeal.Frame
import proofs.«115553_j50173807952573_2_alg».proof.Proof.KSoft
import Idealize.ShloMosaic.Lib.Pipeline.Value
import Idealize.ShloMosaic.Lib.Tactic

set_option maxRecDepth 16384

noncomputable section

namespace Cert.KernelIdeal.Pieces

open Cert.KernelIdeal Cert.KernelIdeal.Gen Cert.KernelIdeal.KPay
open Idealize.ShloMosaic Idealize.ShloMosaic.TcCoe Idealize.ShloMosaic.ValueIdx Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

/-- The 2048 rows of a `[1, 2048, 1024]` block through a linear layer: what a carried buffer holds. -/
def rowsOf (X : Vec Ideal S1x2048x1024 .f32) (W : Vec Ideal S1024x1024 .bf16) (B : Vec Ideal S1x1024 .f32) :
    Vec Ideal S2048x1024 .bf16 :=
  fun j => Attn.linRow (fun h => X (ix3 (0 : Fin 1) (j 0) h)) (fun o h => W (ix2 o h)) (fun o => B (ix2 (0 : Fin 1) o)) (j 1)

/-- A chunk stored at row offset `c0` whose rows are the linear layer of the block's rows `c0 …` is, under its
    rectangle, the whole buffer's function. -/
theorem piece_ok (c0 : Nat) (inbS : ∀ a, (![c0, 0] : Fin 2 → Nat) a + S512x1024.size a ≤ S2048x1024.size a)
    (inbL : ∀ a, (![0, c0, 0] : Fin 3 → Nat) a + S1x512x1024.size a ≤ S1x2048x1024.size a)
    (X : Vec Ideal S1x2048x1024 .f32) (W : Vec Ideal S1024x1024 .bf16) (B : Vec Ideal S1x1024 .f32)
    (pay : FVec Ideal S512x1024 .bf16)
    (hpay : ∀ (r : Fin 512) (o : Fin 1024), pay (ix2 r o)
      = Attn.linRow (fun h => View.ld X (Rect.unit ![0, c0, 0] S1x512x1024.size inbL) (ix3 (0 : Fin 1) r h))
          (fun o h => W (ix2 o h)) (fun o => B (ix2 (0 : Fin 1) o)) o)
    (x : (Rect.unit (s := S2048x1024) ![c0, 0] S512x1024.size inbS).shape.Idx) :
    pay x = rowsOf X W B ((Rect.unit (s := S2048x1024) ![c0, 0] S512x1024.size inbS).emb x) := by
  obtain ⟨r, o, rfl⟩ : ∃ (r : Fin 512) (o : Fin 1024), x = ix2 r o := ⟨x 0, x 1, eq_ix2 x⟩
  refine (hpay r o).trans ?_
  unfold rowsOf
  have e1 : ((Rect.unit (s := S2048x1024) ![c0, 0] S512x1024.size inbS).emb (ix2 r o)) 1 = o :=
    Fin.ext (by show 0 + 1 * o.val = o.val; omega)
  have e0 : ∀ h : Fin 1024, View.ld X (Rect.unit ![0, c0, 0] S1x512x1024.size inbL) (ix3 (0 : Fin 1) r h)
      = X (ix3 (0 : Fin 1) (((Rect.unit (s := S2048x1024) ![c0, 0] S512x1024.size inbS).emb (ix2 r o)) 0) h) :=
    fun h => congrArg X (funext fun a => Fin.ext (by
      match a with
      | ⟨0, _⟩ => rfl
      | ⟨1, _⟩ => rfl
      | ⟨2, _⟩ => show 0 + 1 * h.val = h.val; omega))
  simp only [e0]
  rw [e1]

/-! ## A batch's first tile -/

/-- At a first tile the first carried buffer is filled with the projected rows of the key block. -/
theorem scrK (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) :
    sout0_A_0 (F := Ideal) c i a2 h2 a3 h3 a4 h4 a5 h5 a6 h6 a7 h7 a8 h8 a9 h9 a10 h10 a11 h11 a12 h12 a13 h13 a14 h14 hc0 x0 x1 x2 x3 x4 x5 x6 x7 x8 = rowsOf x1 x5 x6 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8)]
  funext y
  refine View.canon_apply_of_pieces (rowsOf x1 x5 x6) _ ?_ y (scover0_A_0 c i a2 h2 a3 h3 a4 h4 a5 h5 a6 h6 a7 h7 a8 h8 a9 h9 a10 h10 a11 h11 a12 h12 a13 h13 a14 h14 hc0 x0 x1 x2 x3 x4 x5 x6 x7 x8 y)
  unfold kernelRun0_A
  dsimp only
  sl_unfold_words
  simp only [View.readAt_eq_ld, h3.read_unread, h7.read_unread, h8.read_unread, View.ld_unit_zero (S := S1024x1024) hz2,
    View.ld_unit_zero (S := S1x1024) hz2, pay2_eq, pay4_eq]
  intro p hp
  simp only [List.mem_cons, List.not_mem_nil, or_false] at hp
  rcases hp with rfl | rfl | rfl | rfl
  · exact piece_ok 1536 inb_S2048x1024_S512x1024_1536_0 inb_S1x2048x1024_S1x512x1024_0_1536_0 x1 x5 x6 _ (fun r o => pay13_apply _ _ _ r o)
  · exact piece_ok 1024 inb_S2048x1024_S512x1024_1024_0 inb_S1x2048x1024_S1x512x1024_0_1024_0 x1 x5 x6 _ (fun r o => pay11_apply _ _ _ r o)
  · exact piece_ok 512 inb_S2048x1024_S512x1024_512_0 inb_S1x2048x1024_S1x512x1024_0_512_0 x1 x5 x6 _ (fun r o => pay98_apply _ _ _ r o)
  · exact piece_ok 0 inb_S2048x1024_S512x1024_0_0 inb_S1x2048x1024_S1x512x1024_0_0_0 x1 x5 x6 _ (fun r o => pay6_apply _ _ _ r o)

/-- At a first tile the second carried buffer is filled with the projected rows of the value block. -/
theorem scrV (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) :
    sout0_A_1 (F := Ideal) c i a2 h2 a3 h3 a4 h4 a5 h5 a6 h6 a7 h7 a8 h8 a9 h9 a10 h10 a11 h11 a12 h12 a13 h13 a14 h14 hc0 x0 x1 x2 x3 x4 x5 x6 x7 x8 = rowsOf x2 x7 x8 := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 x0 x1 x2 x3 x4 x5 x6 x7 x8)]
  funext y
  refine View.canon_apply_of_pieces (rowsOf x2 x7 x8) _ ?_ y (scover0_A_1 c i a2 h2 a3 h3 a4 h4 a5 h5 a6 h6 a7 h7 a8 h8 a9 h9 a10 h10 a11 h11 a12 h12 a13 h13 a14 h14 hc0 x0 x1 x2 x3 x4 x5 x6 x7 x8 y)
  unfold kernelRun0_A
  dsimp only
  sl_unfold_words
  simp only [View.readAt_eq_ld, h4.read_unread, h9.read_unread, h10.read_unread, View.ld_unit_zero (S := S1024x1024) hz2,
    View.ld_unit_zero (S := S1x1024) hz2, pay3_eq, pay5_eq]
  intro p hp
  simp only [List.mem_cons, List.not_mem_nil, or_false] at hp
  rcases hp with rfl | rfl | rfl | rfl
  · exact piece_ok 1536 inb_S2048x1024_S512x1024_1536_0 inb_S1x2048x1024_S1x512x1024_0_1536_0 x2 x7 x8 _ (fun r o => pay14_apply _ _ _ r o)
  · exact piece_ok 1024 inb_S2048x1024_S512x1024_1024_0 inb_S1x2048x1024_S1x512x1024_0_1024_0 x2 x7 x8 _ (fun r o => pay12_apply _ _ _ r o)
  · exact piece_ok 512 inb_S2048x1024_S512x1024_512_0 inb_S1x2048x1024_S1x512x1024_0_512_0 x2 x7 x8 _ (fun r o => pay10_apply _ _ _ r o)
  · exact piece_ok 0 inb_S2048x1024_S512x1024_0_0 inb_S1x2048x1024_S1x512x1024_0_0_0 x2 x7 x8 _ (fun r o => pay7_apply _ _ _ r o)

/-- A whole-buffer load after stores that cover the buffer reads what the stores left. -/
theorem readCov_whole {sg : RefSig} {κ : Kind} {sp : Space} (v : View sg κ sp S2048x1024 .bf16)
    (inb : ∀ a, (![0, 0] : Fin 2 → Nat) a + S2048x1024.size a ≤ S2048x1024.size a)
    (L : List (View.Piece (Elt Ideal) S2048x1024 .bf16)) (hL : ∀ y, ∃ p ∈ L, y ∈ p.1.set) :
    v.readCov L (Rect.unit ![0, 0] S2048x1024.size inb).toLoadRect = View.canon L :=
  (View.readCov_eq_canon_ld v L _ hL).trans (View.ld_unit_zero hz2 _ _)

/-- At a first tile the weights block is computed from the query block and the freshly filled key buffer. -/
theorem outA10 (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) :
    out0_A_10 (F := Ideal) c i a2 h2 a3 h3 a4 h4 a5 h5 a6 h6 a7 h7 a8 h8 a9 h9 a10 h10 a11 h11 a12 h12 a13 h13 a14 h14 hc0 x0 x1 x2 x3 x4 x5 x6 x7 x8 = k0_pay16 x0 x3 x4 (rowsOf x1 x5 x6) := by
  rw [← scrK c i a2 h2 a3 h3 a4 h4 a5 h5 a6 h6 a7 h7 a8 h8 a9 h9 a10 h10 a11 h11 a12 h12 a13 h13 a14 h14 hc0 x0 x1 x2 x3 x4 x5 x6 x7 x8]
  unfold out0_A_10 sout0_A_0
  rw [View.read_writes_eq_canon _ _ _ (cover0_A_10 c i a2 h2 a3 h3 a4 h4 a5 h5 a6 h6 a7 h7 a8 h8 a9 h9 a10 h10 a11 h11 a12 h12 a13 h13 a14 h14 hc0 x0 x1 x2 x3 x4 x5 x6 x7 x8),
    View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  sl_unfold_words
  rw [View.canon_unit_zero hz3, readCov_whole]
  · simp only [View.readAt_eq_ld, h2.read_unread, h5.read_unread, h6.read_unread, View.ld_unit_zero (S := S1x256x1024) hz3,
      View.ld_unit_zero (S := S1024x1024) hz2, View.ld_unit_zero (S := S1x1024) hz2]
  · exact scover0_A_0 (F := Ideal) c i a2 h2 a3 h3 a4 h4 a5 h5 a6 h6 a7 h7 a8 h8 a9 h9 a10 h10 a11 h11 a12 h12 a13 h13 a14 h14 hc0 x0 x1 x2 x3 x4 x5 x6 x7 x8

/-- At a first tile the context block is computed from the query block and the two freshly filled buffers. -/
theorem outA9 (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) :
    out0_A_9 (F := Ideal) c i a2 h2 a3 h3 a4 h4 a5 h5 a6 h6 a7 h7 a8 h8 a9 h9 a10 h10 a11 h11 a12 h12 a13 h13 a14 h14 hc0 x0 x1 x2 x3 x4 x5 x6 x7 x8
      = k0_pay1 (k0_pay17 x0 x3 x4 (rowsOf x1 x5 x6) (rowsOf x2 x7 x8)) := by
  rw [← scrK c i a2 h2 a3 h3 a4 h4 a5 h5 a6 h6 a7 h7 a8 h8 a9 h9 a10 h10 a11 h11 a12 h12 a13 h13 a14 h14 hc0 x0 x1 x2 x3 x4 x5 x6 x7 x8, ← scrV c i a2 h2 a3 h3 a4 h4 a5 h5 a6 h6 a7 h7 a8 h8 a9 h9 a10 h10 a11 h11 a12 h12 a13 h13 a14 h14 hc0 x0 x1 x2 x3 x4 x5 x6 x7 x8]
  unfold out0_A_9 sout0_A_0 sout0_A_1
  rw [View.read_writes_eq_canon _ _ _ (cover0_A_9 c i a2 h2 a3 h3 a4 h4 a5 h5 a6 h6 a7 h7 a8 h8 a9 h9 a10 h10 a11 h11 a12 h12 a13 h13 a14 h14 hc0 x0 x1 x2 x3 x4 x5 x6 x7 x8),
    View.read_writes_eq_canon _ _ _ (scover0_A_0 c i a2 h2 a3 h3 a4 h4 a5 h5 a6 h6 a7 h7 a8 h8 a9 h9 a10 h10 a11 h11 a12 h12 a13 h13 a14 h14 hc0 x0 x1 x2 x3 x4 x5 x6 x7 x8),
    View.read_writes_eq_canon _ _ _ (scover0_A_1 c i a2 h2 a3 h3 a4 h4 a5 h5 a6 h6 a7 h7 a8 h8 a9 h9 a10 h10 a11 h11 a12 h12 a13 h13 a14 h14 hc0 x0 x1 x2 x3 x4 x5 x6 x7 x8)]
  unfold kernelRun0_A
  dsimp only
  sl_unfold_words
  rw [View.canon_unit_zero hz3, readCov_whole, readCov_whole]
  · simp only [View.readAt_eq_ld, h2.read_unread, h5.read_unread, h6.read_unread, View.ld_unit_zero (S := S1x256x1024) hz3,
      View.ld_unit_zero (S := S1024x1024) hz2, View.ld_unit_zero (S := S1x1024) hz2]
  · exact scover0_A_1 (F := Ideal) c i a2 h2 a3 h3 a4 h4 a5 h5 a6 h6 a7 h7 a8 h8 a9 h9 a10 h10 a11 h11 a12 h12 a13 h13 a14 h14 hc0 x0 x1 x2 x3 x4 x5 x6 x7 x8
  · exact scover0_A_0 (F := Ideal) c i a2 h2 a3 h3 a4 h4 a5 h5 a6 h6 a7 h7 a8 h8 a9 h9 a10 h10 a11 h11 a12 h12 a13 h13 a14 h14 hc0 x0 x1 x2 x3 x4 x5 x6 x7 x8

/-! ## A later tile -/

/-- At a later tile the weights block is computed from the query block and the key buffer as the tile before left it. -/
theorem outB10 (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : ¬cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) (xs0 xs1 : Vec Ideal S2048x1024 .bf16) :
    out0_B_10 (F := Ideal) c i a2 h2 a3 h3 a4 h4 a5 h5 a6 h6 a7 h7 a8 h8 a9 h9 a10 h10 a11 h11 a12 h12 a13 h13 a14 h14 hc0 x0 x1 x2 x3 x4 x5 x6 x7 x8 xs0 xs1 = k0_pay16 x0 x3 x4 xs0 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 x0 x1 x2 x3 x4 x5 x6 x7 x8 xs0 xs1)]
  unfold kernelRun0_B
  dsimp only
  sl_unfold_words
  rw [View.canon_unit_zero hz3]
  simp only [View.readAt_eq_ld, h2.read_unread, h5.read_unread, h6.read_unread, h13.read_unread,
    View.ld_unit_zero (S := S1x256x1024) hz3, View.ld_unit_zero (S := S1024x1024) hz2, View.ld_unit_zero (S := S1x1024) hz2,
    View.ld_unit_zero (S := S2048x1024) hz2]

/-- At a later tile the context block is computed from the query block and the two buffers as the tile before left them. -/
theorem outB9 (c : Dev nD) (i : grid0.Coords) (a2 : Memref sig .tc .vmem S1x256x1024 .f32) (h2 : a2.IsWhole) (a3 : Memref sig .tc .vmem S1x2048x1024 .f32) (h3 : a3.IsWhole) (a4 : Memref sig .tc .vmem S1x2048x1024 .f32) (h4 : a4.IsWhole) (a5 : Memref sig .tc .vmem S1024x1024 .bf16) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S1024x1024 .bf16) (h9 : a9.IsWhole) (a10 : Memref sig .tc .vmem S1x1024 .f32) (h10 : a10.IsWhole) (a11 : Memref sig .tc .vmem S1x256x1024 .f32) (h11 : a11.IsWhole) (a12 : Memref sig .tc .vmem S1x2048x256 .f32) (h12 : a12.IsWhole) (a13 : Memref sig .tc .vmem S2048x1024 .bf16) (h13 : a13.IsWhole) (a14 : Memref sig .tc .vmem S2048x1024 .bf16) (h14 : a14.IsWhole) (hc0 : ¬cond0_0 i) (x0 : Vec Ideal S1x256x1024 .f32) (x1 : Vec Ideal S1x2048x1024 .f32) (x2 : Vec Ideal S1x2048x1024 .f32) (x3 : Vec Ideal S1024x1024 .bf16) (x4 : Vec Ideal S1x1024 .f32) (x5 : Vec Ideal S1024x1024 .bf16) (x6 : Vec Ideal S1x1024 .f32) (x7 : Vec Ideal S1024x1024 .bf16) (x8 : Vec Ideal S1x1024 .f32) (xs0 xs1 : Vec Ideal S2048x1024 .bf16) :
    out0_B_9 (F := Ideal) c i a2 h2 a3 h3 a4 h4 a5 h5 a6 h6 a7 h7 a8 h8 a9 h9 a10 h10 a11 h11 a12 h12 a13 h13 a14 h14 hc0 x0 x1 x2 x3 x4 x5 x6 x7 x8 xs0 xs1 = k0_pay1 (k0_pay17 x0 x3 x4 xs0 xs1) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 x0 x1 x2 x3 x4 x5 x6 x7 x8 xs0 xs1)]
  unfold kernelRun0_B
  dsimp only
  sl_unfold_words
  rw [View.canon_unit_zero hz3]
  simp only [View.readAt_eq_ld, h2.read_unread, h5.read_unread, h6.read_unread, h13.read_unread, h14.read_unread,
    View.ld_unit_zero (S := S1x256x1024) hz3, View.ld_unit_zero (S := S1024x1024) hz2, View.ld_unit_zero (S := S1x1024) hz2,
    View.ld_unit_zero (S := S2048x1024) hz2]

end Cert.KernelIdeal.Pieces

end
-- ==== Proof.Blocks.lean ====
/-
  The blocks the body is handed at a grid point, as entries of the argument arrays.

  Point `t` of the 8 × 8 grid is batch `t / 8`, query tile `t % 8`. The query block is rows
  `256 · (t % 8) …` of the batch's queries; the key and value blocks are the batch's whole slabs; the three weights
  reach the region through a change of format, which at the extended reals is the identity, and the three biases
  through a cast of a vector to one row.
-/
import proofs.«115553_j50173807952573_2_alg».proof.Proof.Gen.KernelIdeal.Frame
import Idealize.ShloMosaic.Lib.Pipeline.Value
import Idealize.ShloMosaic.Lib.ValueLayout
import Idealize.ShloMosaic.Lib.ValueIdx
import Idealize.ShloMosaic.Lib.StableHlo.Run

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-! ## The index maps over the grid -/

theorem idx0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem idx1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem idx2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 ∧ win0_6.index t 1 = 0 :=
  (by decide +kernel : ∀ t : Fin grid0.N, win0_6.index t 0 = 0 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = 0 ∧ win0_8.index t 1 = 0 :=
  (by decide +kernel : ∀ t : Fin grid0.N, win0_8.index t 0 = 0 ∧ win0_8.index t 1 = 0)
theorem idx9 : ∀ t : Fin cfg0.N, win0_9.index t 0 = t.val / 8 ∧ win0_9.index t 1 = t.val % 8 ∧ win0_9.index t 2 = 0 :=
  (by decide +kernel : ∀ t : Fin grid0.N, win0_9.index t 0 = t.val / 8 ∧ win0_9.index t 1 = t.val % 8 ∧ win0_9.index t 2 = 0)
theorem idx10 : ∀ t : Fin cfg0.N, win0_10.index t 0 = t.val / 8 ∧ win0_10.index t 1 = 0 ∧ win0_10.index t 2 = t.val % 8 :=
  (by decide +kernel : ∀ t : Fin grid0.N, win0_10.index t 0 = t.val / 8 ∧ win0_10.index t 1 = 0 ∧ win0_10.index t 2 = t.val % 8)

/-- The batch of a grid point. -/
def batch (t : Fin cfg0.N) : Fin 8 := ⟨t.val / 8, by have := lt_of_lt_of_eq t.isLt (show cfg0.N = 64 from N_0); omega⟩
/-- Row `r` of a grid point's query tile, among the batch's 2048 queries. -/
def qrow (t : Fin cfg0.N) (r : Fin 256) : Fin 2048 := ⟨256 * (t.val % 8) + r.val, by have := r.isLt; omega⟩

/-! ## The arrays the region finds -/

theorem V_v0 : (V m c main_v0 : S1024x1024.Idx → EReal) = m ((c : Thread nD τ).loc main_arg3) := by
  dsimp only [Gen.V, Gen.hostOps0]; after_results; rfl
theorem V_v1 : (V m c main_v1 : S1024x1024.Idx → EReal) = m ((c : Thread nD τ).loc main_arg5) := by
  dsimp only [Gen.V, Gen.hostOps0]; after_results; rfl
theorem V_v2 : (V m c main_v2 : S1024x1024.Idx → EReal) = m ((c : Thread nD τ).loc main_arg7) := by
  dsimp only [Gen.V, Gen.hostOps0]; after_results; rfl
theorem V_v3 : (V m c main_v3 : S1x1024.Idx → EReal)
    = shapeCast S1x1024 (m ((c : Thread nD τ).loc main_arg4)) Facts₀.shapeCasts_S1024_S1x1024 := by
  dsimp only [Gen.V, Gen.hostOps0]; after_results; rfl
theorem V_v4 : (V m c main_v4 : S1x1024.Idx → EReal)
    = shapeCast S1x1024 (m ((c : Thread nD τ).loc main_arg6)) Facts₀.shapeCasts_S1024_S1x1024 := by
  dsimp only [Gen.V, Gen.hostOps0]; after_results; rfl
theorem V_v5 : (V m c main_v5 : S1x1024.Idx → EReal)
    = shapeCast S1x1024 (m ((c : Thread nD τ).loc main_arg8)) Facts₀.shapeCasts_S1024_S1x1024 := by
  dsimp only [Gen.V, Gen.hostOps0]; after_results; rfl

/-! ## The blocks at a point -/

/-- The query block: rows `256 · (t % 8) …` of batch `t / 8`. -/
theorem blk0 (t : Fin cfg0.N) (u : Fin 1) (r : Fin 256) (h : Fin 1024) :
    (iblk m c 0 t : Vec Ideal S1x256x1024 .f32) (ix3 u r h)
      = m ((c : Thread nD τ).loc main_arg0) (ix3 (batch t) (qrow t r) h) := by
  unfold iblk
  rw [View.read_apply]
  show V m c main_arg0 _ = _
  rw [V_main_arg0]
  refine congrArg _ (funext fun a => Fin.ext ?_)
  have hu : u.val = 0 := by omega
  match a with
  | ⟨0, _⟩ => show win0_0.index t 0 * 1 + 1 * u.val = t.val / 8; rw [(idx0 t).1, hu]; omega
  | ⟨1, _⟩ => show win0_0.index t 1 * 256 + 1 * r.val = 256 * (t.val % 8) + r.val; rw [(idx0 t).2.1]; omega
  | ⟨2, _⟩ => show win0_0.index t 2 * 1024 + 1 * h.val = h.val; rw [(idx0 t).2.2]; omega

/-- The key block: the whole slab of batch `t / 8`. -/
theorem blk1 (t : Fin cfg0.N) (u : Fin 1) (s : Fin 2048) (h : Fin 1024) :
    (iblk m c 1 t : Vec Ideal S1x2048x1024 .f32) (ix3 u s h)
      = m ((c : Thread nD τ).loc main_arg1) (ix3 (batch t) s h) := by
  unfold iblk
  rw [View.read_apply]
  show V m c main_arg1 _ = _
  rw [V_main_arg1]
  refine congrArg _ (funext fun a => Fin.ext ?_)
  have hu : u.val = 0 := by omega
  match a with
  | ⟨0, _⟩ => show win0_1.index t 0 * 1 + 1 * u.val = t.val / 8; rw [(idx1 t).1, hu]; omega
  | ⟨1, _⟩ => show win0_1.index t 1 * 2048 + 1 * s.val = s.val; rw [(idx1 t).2.1]; omega
  | ⟨2, _⟩ => show win0_1.index t 2 * 1024 + 1 * h.val = h.val; rw [(idx1 t).2.2]; omega

/-- The value block: the whole slab of batch `t / 8`. -/
theorem blk2 (t : Fin cfg0.N) (u : Fin 1) (s : Fin 2048) (h : Fin 1024) :
    (iblk m c 2 t : Vec Ideal S1x2048x1024 .f32) (ix3 u s h)
      = m ((c : Thread nD τ).loc main_arg2) (ix3 (batch t) s h) := by
  unfold iblk
  rw [View.read_apply]
  show V m c main_arg2 _ = _
  rw [V_main_arg2]
  refine congrArg _ (funext fun a => Fin.ext ?_)
  have hu : u.val = 0 := by omega
  match a with
  | ⟨0, _⟩ => show win0_2.index t 0 * 1 + 1 * u.val = t.val / 8; rw [(idx2 t).1, hu]; omega
  | ⟨1, _⟩ => show win0_2.index t 1 * 2048 + 1 * s.val = s.val; rw [(idx2 t).2.1]; omega
  | ⟨2, _⟩ => show win0_2.index t 2 * 1024 + 1 * h.val = h.val; rw [(idx2 t).2.2]; omega

/-- A weight block is the weight argument. -/
theorem blk3 (t : Fin cfg0.N) (o h : Fin 1024) :
    (iblk m c 3 t : Vec Ideal S1024x1024 .bf16) (ix2 o h) = m ((c : Thread nD τ).loc main_arg3) (ix2 o h) := by
  unfold iblk
  rw [View.read_apply]
  show V m c main_v0 _ = _
  rw [V_v0]
  refine congrArg _ (funext fun a => Fin.ext ?_)
  match a with
  | ⟨0, _⟩ => show win0_3.index t 0 * 1024 + 1 * o.val = o.val; rw [(idx3 t).1]; omega
  | ⟨1, _⟩ => show win0_3.index t 1 * 1024 + 1 * h.val = h.val; rw [(idx3 t).2]; omega

theorem blk5 (t : Fin cfg0.N) (o h : Fin 1024) :
    (iblk m c 5 t : Vec Ideal S1024x1024 .bf16) (ix2 o h) = m ((c : Thread nD τ).loc main_arg5) (ix2 o h) := by
  unfold iblk
  rw [View.read_apply]
  show V m c main_v1 _ = _
  rw [V_v1]
  refine congrArg _ (funext fun a => Fin.ext ?_)
  match a with
  | ⟨0, _⟩ => show win0_5.index t 0 * 1024 + 1 * o.val = o.val; rw [(idx5 t).1]; omega
  | ⟨1, _⟩ => show win0_5.index t 1 * 1024 + 1 * h.val = h.val; rw [(idx5 t).2]; omega

theorem blk7 (t : Fin cfg0.N) (o h : Fin 1024) :
    (iblk m c 7 t : Vec Ideal S1024x1024 .bf16) (ix2 o h) = m ((c : Thread nD τ).loc main_arg7) (ix2 o h) := by
  unfold iblk
  rw [View.read_apply]
  show V m c main_v2 _ = _
  rw [V_v2]
  refine congrArg _ (funext fun a => Fin.ext ?_)
  match a with
  | ⟨0, _⟩ => show win0_7.index t 0 * 1024 + 1 * o.val = o.val; rw [(idx7 t).1]; omega
  | ⟨1, _⟩ => show win0_7.index t 1 * 1024 + 1 * h.val = h.val; rw [(idx7 t).2]; omega

/-- A bias block's one row is the bias argument. -/
theorem blk4 (t : Fin cfg0.N) (u : Fin 1) (o : Fin 1024) :
    (iblk m c 4 t : Vec Ideal S1x1024 .f32) (ix2 u o) = m ((c : Thread nD τ).loc main_arg4) (ix1 o) := by
  unfold iblk
  rw [View.read_apply]
  show V m c main_v3 _ = _
  rw [V_v3]
  refine Eq.trans (congrArg _ (funext fun a => Fin.ext ?_)) (shapeCast_a_1a_apply _ _ u o)
  match a with
  | ⟨0, _⟩ => show win0_4.index t 0 * 1 + 1 * u.val = u.val; rw [(idx4 t).1]; omega
  | ⟨1, _⟩ => show win0_4.index t 1 * 1024 + 1 * o.val = o.val; rw [(idx4 t).2]; omega

theorem blk6 (t : Fin cfg0.N) (u : Fin 1) (o : Fin 1024) :
    (iblk m c 6 t : Vec Ideal S1x1024 .f32) (ix2 u o) = m ((c : Thread nD τ).loc main_arg6) (ix1 o) := by
  unfold iblk
  rw [View.read_apply]
  show V m c main_v4 _ = _
  rw [V_v4]
  refine Eq.trans (congrArg _ (funext fun a => Fin.ext ?_)) (shapeCast_a_1a_apply _ _ u o)
  match a with
  | ⟨0, _⟩ => show win0_6.index t 0 * 1 + 1 * u.val = u.val; rw [(idx6 t).1]; omega
  | ⟨1, _⟩ => show win0_6.index t 1 * 1024 + 1 * o.val = o.val; rw [(idx6 t).2]; omega

theorem blk8 (t : Fin cfg0.N) (u : Fin 1) (o : Fin 1024) :
    (iblk m c 8 t : Vec Ideal S1x1024 .f32) (ix2 u o) = m ((c : Thread nD τ).loc main_arg8) (ix1 o) := by
  unfold iblk
  rw [View.read_apply]
  show V m c main_v5 _ = _
  rw [V_v5]
  refine Eq.trans (congrArg _ (funext fun a => Fin.ext ?_)) (shapeCast_a_1a_apply _ _ u o)
  match a with
  | ⟨0, _⟩ => show win0_8.index t 0 * 1 + 1 * u.val = u.val; rw [(idx8 t).1]; omega
  | ⟨1, _⟩ => show win0_8.index t 1 * 1024 + 1 * o.val = o.val; rw [(idx8 t).2]; omega

end Cert.KernelIdeal.Blocks

end
-- ==== Proof.KernelValue.lean ====
/-
  The kernel's two result arrays, as functions of the nine argument arrays.

  The two carried buffers hold, after every grid point, the projected key rows and the projected value rows of the
  point's batch: filled at the batch's first query tile, kept by the seven later ones (an induction over the points).
  So what a point writes back is the block of the attention weights, and of the context, that its batch and query
  tile name; every index of either result lies in exactly the block of the point with its batch and its query's tile,
  and the result arrays are the specification's.
-/
import proofs.«115553_j50173807952573_2_alg».proof.Proof.Gen.KernelIdeal.Value
import proofs.«115553_j50173807952573_2_alg».proof.Proof.Pieces
import proofs.«115553_j50173807952573_2_alg».proof.Proof.Blocks

set_option maxRecDepth 16384

noncomputable section

namespace Cert.KernelIdeal.KValue

open Cert.KernelIdeal Cert.KernelIdeal.Gen Cert.KernelIdeal.KPay Cert.KernelIdeal.Blocks
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg) (c : Dev nD)

/-- The attention weights of the argument arrays. -/
def attnG : S8x2048x2048.Idx → EReal := Attn.attnArr (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))
/-- The context of the argument arrays. -/
def ctxG : S8x2048x1024.Idx → EReal :=
  Attn.ctxArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The projected key rows of batch `g`. -/
def kArr (g : Fin 8) : Vec Ideal S2048x1024 .bf16 := fun j => Attn.proj (m ((c : Thread nD τ).loc main_arg1)) (m ((c : Thread nD τ).loc main_arg5)) (m ((c : Thread nD τ).loc main_arg6)) g (j 0) (j 1)
/-- The projected value rows of batch `g`. -/
def vArr (g : Fin 8) : Vec Ideal S2048x1024 .bf16 := fun j => Attn.proj (m ((c : Thread nD τ).loc main_arg2)) (m ((c : Thread nD τ).loc main_arg7)) (m ((c : Thread nD τ).loc main_arg8)) g (j 0) (j 1)

/-! ## The carried buffers -/

theorem rows_k (t : Fin cfg0.N) : Pieces.rowsOf (iblk m c 1 t) (iblk m c 5 t) (iblk m c 6 t) = kArr m c (batch t) := by
  funext j
  unfold Pieces.rowsOf kArr Attn.proj
  have e : ∀ h : Fin 1024, (iblk m c 1 t : Vec Ideal S1x2048x1024 .f32) (ix3 (0 : Fin 1) (j 0) h)
      = m ((c : Thread nD τ).loc main_arg1) (ix3 (batch t) (j 0) h) := fun h => blk1 m c t 0 (j 0) h
  simp only [e, blk5, blk6]

theorem rows_v (t : Fin cfg0.N) : Pieces.rowsOf (iblk m c 2 t) (iblk m c 7 t) (iblk m c 8 t) = vArr m c (batch t) := by
  funext j
  unfold Pieces.rowsOf vArr Attn.proj
  have e : ∀ h : Fin 1024, (iblk m c 2 t : Vec Ideal S1x2048x1024 .f32) (ix3 (0 : Fin 1) (j 0) h)
      = m ((c : Thread nD τ).loc main_arg2) (ix3 (batch t) (j 0) h) := fun h => blk2 m c t 0 (j 0) h
  simp only [e, blk7, blk8]

theorem batch_succ (n : ℕ) (hn : n + 1 < cfg0.N) (h0 : ¬(n + 1) % 8 = 0) :
    batch ⟨n + 1, hn⟩ = batch ⟨n, Nat.lt_of_succ_lt hn⟩ := Fin.ext (by show (n + 1) / 8 = n / 8; omega)

/-- After every point the two carried buffers hold the projected key and value rows of the point's batch. -/
theorem scr_inv : ∀ (n : ℕ) (hn : n < cfg0.N),
    (outsAt0 m c n hn).2.2.1 = kArr m c (batch ⟨n, hn⟩) ∧ (outsAt0 m c n hn).2.2.2 = vArr m c (batch ⟨n, hn⟩)
  | 0, hn => by
    have h0 : (⟨0, hn⟩ : Fin cfg0.N).val % 8 = 0 := rfl
    rw [outsAt0_A m c ⟨0, hn⟩ h0]
    dsimp only
    exact ⟨(Pieces.scrK c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)).trans (rows_k m c ⟨0, hn⟩),
      (Pieces.scrV c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) scM0_1 (Memref.isWhole_whole _) ((hcond0_0 ⟨0, hn⟩).mpr h0) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩)).trans (rows_v m c ⟨0, hn⟩)⟩
  | n + 1, hn => by
    by_cases h0 : (⟨n + 1, hn⟩ : Fin cfg0.N).val % 8 = 0
    · rw [outsAt0_A m c ⟨n + 1, hn⟩ h0]
      dsimp only
      exact ⟨(Pieces.scrK c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)).trans (rows_k m c ⟨n + 1, hn⟩),
        (Pieces.scrV c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) scM0_1 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩)).trans (rows_v m c ⟨n + 1, hn⟩)⟩
    · rw [outsAt0_B m c ⟨n + 1, hn⟩ h0]
      dsimp only
      unfold sout0_B_0 sout0_B_1
      rw [batch_succ n hn h0]
      exact scr_inv n (Nat.lt_of_succ_lt hn)

/-- The same read at the point before a later tile of a batch. -/
theorem scr_prev (t : Fin cfg0.N) (h0 : ¬t.val % 8 = 0) :
    (outsAt0 m c (t.val - 1) (Nat.lt_of_le_of_lt (Nat.sub_le _ _) t.isLt)).2.2.1 = kArr m c (batch t) ∧ (outsAt0 m c (t.val - 1) (Nat.lt_of_le_of_lt (Nat.sub_le _ _) t.isLt)).2.2.2 = vArr m c (batch t) := by
  obtain ⟨n, hn⟩ := t
  cases n with
  | zero => exact absurd rfl h0
  | succ n =>
    have h := scr_inv m c n (Nat.lt_of_succ_lt hn)
    rw [← batch_succ n hn h0] at h
    exact h

/-! ## What a point writes back -/

/-- The weights a point computes are its block of the attention weights. -/
theorem tile10 (t : Fin cfg0.N) :
    (cfg0.win 10).cut (grid0.coords t) (k0_pay16 (F := Ideal) (iblk m c 0 t) (iblk m c 3 t) (iblk m c 4 t) (kArr m c (batch t)))
      = ((cfg0.win 10).blk t).view.read (Elt Ideal) (attnG m c) := by
  funext j
  obtain ⟨u, s, r, rfl⟩ : ∃ (u : Fin 1) (s : Fin 2048) (r : Fin 256), j = ix3 u s r := ⟨j 0, j 1, j 2, eq_ix3 j⟩
  show k0_pay16 (F := Ideal) (iblk m c 0 t) (iblk m c 3 t) (iblk m c 4 t) (kArr m c (batch t)) (ix3 u s r)
    = attnG m c (((cfg0.win 10).blk t).view.emb (ix3 u s r))
  have hu : u.val = 0 := by omega
  have e0 : (((cfg0.win 10).blk t).view.emb (ix3 u s r)) 0 = batch t :=
    Fin.ext (by show win0_10.index t 0 * 1 + 1 * u.val = t.val / 8; rw [(idx10 t).1, hu]; omega)
  have e1 : (((cfg0.win 10).blk t).view.emb (ix3 u s r)) 1 = s :=
    Fin.ext (by show win0_10.index t 1 * 2048 + 1 * s.val = s.val; rw [(idx10 t).2.1]; omega)
  have e2 : (((cfg0.win 10).blk t).view.emb (ix3 u s r)) 2 = qrow t r :=
    Fin.ext (by show win0_10.index t 2 * 256 + 1 * r.val = 256 * (t.val % 8) + r.val; rw [(idx10 t).2.2]; omega)
  rw [pay16_apply, pay15_apply]
  simp only [blk0, blk3, blk4]
  unfold attnG Attn.attnArr Attn.attnAt
  rw [e0, e1, e2]
  rfl

/-- The context a point computes is its block of the context. -/
theorem tile9 (t : Fin cfg0.N) :
    (cfg0.win 9).cut (grid0.coords t) (k0_pay1 (F := Ideal) (k0_pay17 (iblk m c 0 t) (iblk m c 3 t) (iblk m c 4 t)
        (kArr m c (batch t)) (vArr m c (batch t))))
      = ((cfg0.win 9).blk t).view.read (Elt Ideal) (ctxG m c) := by
  funext j
  obtain ⟨u, r, h, rfl⟩ : ∃ (u : Fin 1) (r : Fin 256) (h : Fin 1024), j = ix3 u r h := ⟨j 0, j 1, j 2, eq_ix3 j⟩
  show k0_pay1 (F := Ideal) (k0_pay17 (iblk m c 0 t) (iblk m c 3 t) (iblk m c 4 t) (kArr m c (batch t)) (vArr m c (batch t)))
      (ix3 u r h)
    = ctxG m c (((cfg0.win 9).blk t).view.emb (ix3 u r h))
  have hu : u.val = 0 := by omega
  have e0 : (((cfg0.win 9).blk t).view.emb (ix3 u r h)) 0 = batch t :=
    Fin.ext (by show win0_9.index t 0 * 1 + 1 * u.val = t.val / 8; rw [(idx9 t).1, hu]; omega)
  have e1 : (((cfg0.win 9).blk t).view.emb (ix3 u r h)) 1 = qrow t r :=
    Fin.ext (by show win0_9.index t 1 * 256 + 1 * r.val = 256 * (t.val % 8) + r.val; rw [(idx9 t).2.1]; omega)
  have e2 : (((cfg0.win 9).blk t).view.emb (ix3 u r h)) 2 = h :=
    Fin.ext (by show win0_9.index t 2 * 1024 + 1 * h.val = h.val; rw [(idx9 t).2.2]; omega)
  rw [pay1_apply, pay17_apply]
  simp only [pay15_apply, blk0, blk3, blk4]
  unfold ctxG Attn.ctxArr Attn.ctxAt Attn.attnAt
  rw [e0, e1, e2]
  rfl

theorem flushed10_eq (t : Fin cfg0.N) :
    (dats m 0 c).flushed 10 t = ((cfg0.win 10).blk t).view.read (Elt Ideal) (attnG m c) := by
  by_cases h0 : t.val % 8 = 0
  · rw [Value.flushed10_A m c t h0, Pieces.outA10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), rows_k]
    exact tile10 m c t
  · rw [Value.flushed10_B m c t h0, Pieces.outB10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2,
      (scr_prev m c t h0).1]
    exact tile10 m c t

theorem flushed9_eq (t : Fin cfg0.N) :
    (dats m 0 c).flushed 9 t = ((cfg0.win 9).blk t).view.read (Elt Ideal) (ctxG m c) := by
  by_cases h0 : t.val % 8 = 0
  · rw [Value.flushed9_A m c t h0, Pieces.outA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t), rows_k, rows_v]
    exact tile9 m c t
  · rw [Value.flushed9_B m c t h0, Pieces.outB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2,
      (scr_prev m c t h0).1, (scr_prev m c t h0).2]
    exact tile9 m c t

/-! ## Every index is in some point's block -/

theorem mem_blk10 (t : Fin cfg0.N) (i : S8x2048x2048.Idx) :
    i ∈ ((cfg0.win 10).blk t).view.set ↔ ∀ a : Fin 3, win0_10.index t a * S1x2048x256.size a ≤ (i a).val
      ∧ (i a).val < win0_10.index t a * S1x2048x256.size a + S1x2048x256.size a := by
  show i ∈ ((View.whole main_v6_1).slice (win0_10.rect t)).set ↔ _
  rw [View.set_slice_whole, Rect.mem_set_unit]
  exact Iff.rfl

theorem mem_blk9 (t : Fin cfg0.N) (i : S8x2048x1024.Idx) :
    i ∈ ((cfg0.win 9).blk t).view.set ↔ ∀ a : Fin 3, win0_9.index t a * S1x256x1024.size a ≤ (i a).val
      ∧ (i a).val < win0_9.index t a * S1x256x1024.size a + S1x256x1024.size a := by
  show i ∈ ((View.whole main_v6_0).slice (win0_9.rect t)).set ↔ _
  rw [View.set_slice_whole, Rect.mem_set_unit]
  exact Iff.rfl

/-- The point of batch `g` and query tile `q`. -/
def pointOf (g : Nat) (q : Nat) (hg : g < 8) (hq : q < 8) : Fin cfg0.N :=
  ⟨8 * g + q, by rw [show cfg0.N = 64 from N_0]; omega⟩

theorem cover10 (i : S8x2048x2048.Idx) : ∃ t : Fin cfg0.N, (cfg0.win 10).flush t = true ∧ i ∈ ((cfg0.win 10).blk t).view.set := by
  have h0 : (i 0).val < 8 := (i 0).isLt
  have h1 : (i 1).val < 2048 := (i 1).isLt
  have h2 : (i 2).val < 2048 := (i 2).isLt
  refine ⟨pointOf (i 0).val ((i 2).val / 256) h0 (by omega), flush0_10 _, ?_⟩
  rw [mem_blk10]
  obtain ⟨e0, e1, e2⟩ := idx10 (pointOf (i 0).val ((i 2).val / 256) h0 (by omega))
  have hv : (pointOf (i 0).val ((i 2).val / 256) h0 (by omega)).val = 8 * (i 0).val + (i 2).val / 256 := rfl
  intro a
  match a with
  | ⟨0, _⟩ =>
    show win0_10.index _ 0 * 1 ≤ (i 0).val ∧ (i 0).val < win0_10.index _ 0 * 1 + 1
    rw [e0, hv]; omega
  | ⟨1, _⟩ =>
    show win0_10.index _ 1 * 2048 ≤ (i 1).val ∧ (i 1).val < win0_10.index _ 1 * 2048 + 2048
    rw [e1]; omega
  | ⟨2, _⟩ =>
    show win0_10.index _ 2 * 256 ≤ (i 2).val ∧ (i 2).val < win0_10.index _ 2 * 256 + 256
    rw [e2, hv]; omega

theorem cover9 (i : S8x2048x1024.Idx) : ∃ t : Fin cfg0.N, (cfg0.win 9).flush t = true ∧ i ∈ ((cfg0.win 9).blk t).view.set := by
  have h0 : (i 0).val < 8 := (i 0).isLt
  have h1 : (i 1).val < 2048 := (i 1).isLt
  have h2 : (i 2).val < 1024 := (i 2).isLt
  refine ⟨pointOf (i 0).val ((i 1).val / 256) h0 (by omega), flush0_9 _, ?_⟩
  rw [mem_blk9]
  obtain ⟨e0, e1, e2⟩ := idx9 (pointOf (i 0).val ((i 1).val / 256) h0 (by omega))
  have hv : (pointOf (i 0).val ((i 1).val / 256) h0 (by omega)).val = 8 * (i 0).val + (i 1).val / 256 := rfl
  intro a
  match a with
  | ⟨0, _⟩ =>
    show win0_9.index _ 0 * 1 ≤ (i 0).val ∧ (i 0).val < win0_9.index _ 0 * 1 + 1
    rw [e0, hv]; omega
  | ⟨1, _⟩ =>
    show win0_9.index _ 1 * 256 ≤ (i 1).val ∧ (i 1).val < win0_9.index _ 1 * 256 + 256
    rw [e1, hv]; omega
  | ⟨2, _⟩ =>
    show win0_9.index _ 2 * 1024 ≤ (i 2).val ∧ (i 2).val < win0_9.index _ 2 * 1024 + 1024
    rw [e2]; omega

/-! ## The result arrays and the run -/

theorem final10 : (dats m 0 c).arrAt 10 cfg0.N = attnG m c :=
  (dats m 0 c).arrAt_eq_of_cover 10 (attnG m c) (fun t _ => flushed10_eq m c t) (cover10)

theorem final9 : (dats m 0 c).arrAt 9 cfg0.N = ctxG m c :=
  (dats m 0 c).arrAt_eq_of_cover 9 (ctxG m c) (fun t _ => flushed9_eq m c t) (cover9)

/-- Every weakly fair execution of the idealized kernel ends with the context and the attention weights of its
    arguments in the two result arrays, the arguments unchanged. -/
theorem run : θ_run defs (onTc (τ := τ) (main (F := Ideal))) ⟨m, fun _ => 0, ρ⟩ fun r => ∀ c : Dev nD,
      r.2.mem ((c : Thread nD τ).loc main_v6_0) = ctxG m c
      ∧ r.2.mem ((c : Thread nD τ).loc main_v6_1) = attnG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final9 m c), (h c).2.1.trans (final10 m c), (h c).2.2⟩)
    (Value.run_blocks m ρ)

end Cert.KernelIdeal.KValue

end
-- ==== Proof.RefValue.lean ====
/-
  The reference program read index by index: its two results are the attention weights and the context of the
  specification. Each stage of the program is read at an index through the per-operation lemmas; the maximum over
  the keys, a fold of `max` from `-∞`, is read off the reduce directly; the extra maximum against `-∞` and the
  zero a sum starts from disappear.
-/
import proofs.«115553_j50173807952573_2_alg».proof.Proof.Gen.ReferenceIdeal.Read
import proofs.«115553_j50173807952573_2_alg».proof.Proof.Spec

noncomputable section

namespace Cert.ReferenceIdeal.RefValue

open Cert.ReferenceIdeal Cert.ReferenceIdeal.Read Idealize.ShloMosaic Idealize.ShloMosaic.ValueIdx
open Cert.ReferenceIdeal.Facts₀

/-! ## The index maps of the stages, at an index given by coordinates -/

theorem lidx0 (g : Fin 8) (s : Fin 2048) (o k : Fin 1024) : lidx_main_v0 (ix3 g s o) k = ix3 g s k :=
  funext fun a => by match a with | ⟨0, _⟩ => rfl | ⟨1, _⟩ => rfl | ⟨2, _⟩ => rfl
theorem ridx0 (g : Fin 8) (s : Fin 2048) (o k : Fin 1024) : ridx_main_v0 (ix3 g s o) k = ix2 o k :=
  funext fun a => by match a with | ⟨0, _⟩ => rfl | ⟨1, _⟩ => rfl
theorem lidx4 (g : Fin 8) (s : Fin 2048) (o k : Fin 1024) : lidx_main_v4 (ix3 g s o) k = ix3 g s k :=
  funext fun a => by match a with | ⟨0, _⟩ => rfl | ⟨1, _⟩ => rfl | ⟨2, _⟩ => rfl
theorem ridx4 (g : Fin 8) (s : Fin 2048) (o k : Fin 1024) : ridx_main_v4 (ix3 g s o) k = ix2 o k :=
  funext fun a => by match a with | ⟨0, _⟩ => rfl | ⟨1, _⟩ => rfl
theorem lidx8 (g : Fin 8) (s : Fin 2048) (o k : Fin 1024) : lidx_main_v8 (ix3 g s o) k = ix3 g s k :=
  funext fun a => by match a with | ⟨0, _⟩ => rfl | ⟨1, _⟩ => rfl | ⟨2, _⟩ => rfl
theorem ridx8 (g : Fin 8) (s : Fin 2048) (o k : Fin 1024) : ridx_main_v8 (ix3 g s o) k = ix2 o k :=
  funext fun a => by match a with | ⟨0, _⟩ => rfl | ⟨1, _⟩ => rfl
theorem bidx (g : Fin 8) (s : Fin 2048) (o : Fin 1024) : idx_main_v1 (idx_main_v2 (ix3 g s o)) = ix1 o :=
  funext fun a => by match a with | ⟨0, _⟩ => rfl
theorem bidx' (g : Fin 8) (s : Fin 2048) (o : Fin 1024) : idx_main_v5 (idx_main_v6 (ix3 g s o)) = ix1 o :=
  funext fun a => by match a with | ⟨0, _⟩ => rfl
theorem bidx'' (g : Fin 8) (s : Fin 2048) (o : Fin 1024) : idx_main_v9 (idx_main_v10 (ix3 g s o)) = ix1 o :=
  funext fun a => by match a with | ⟨0, _⟩ => rfl
theorem lidx12 (g : Fin 8) (s q : Fin 2048) (k : Fin 1024) : lidx_main_v12 (ix3 g s q) k = ix3 g s k :=
  funext fun a => by match a with | ⟨0, _⟩ => rfl | ⟨1, _⟩ => rfl | ⟨2, _⟩ => rfl
theorem ridx12 (g : Fin 8) (s q : Fin 2048) (k : Fin 1024) : ridx_main_v12 (ix3 g s q) k = ix3 g q k :=
  funext fun a => by match a with | ⟨0, _⟩ => rfl | ⟨1, _⟩ => rfl | ⟨2, _⟩ => rfl
theorem midx (g : Fin 8) (s q : Fin 2048) : idx_main_v18 (idx_main_v19 (ix3 g s q)) = ix2 g q :=
  funext fun a => by match a with | ⟨0, _⟩ => rfl | ⟨1, _⟩ => rfl
theorem sidx (g : Fin 8) (s q : Fin 2048) : idx_main_v23 (idx_main_v24 (ix3 g s q)) = ix2 g q :=
  funext fun a => by match a with | ⟨0, _⟩ => rfl | ⟨1, _⟩ => rfl
theorem idx22 (g : Fin 8) (q k : Fin 2048) : idx_main_v22 (ix2 g q) k = ix3 g k q :=
  funext fun a => by match a with | ⟨0, _⟩ => rfl | ⟨1, _⟩ => rfl | ⟨2, _⟩ => rfl
theorem lidx26 (g : Fin 8) (q : Fin 2048) (h : Fin 1024) (k : Fin 2048) : lidx_main_v26 (ix3 g q h) k = ix3 g k q :=
  funext fun a => by match a with | ⟨0, _⟩ => rfl | ⟨1, _⟩ => rfl | ⟨2, _⟩ => rfl
theorem ridx26 (g : Fin 8) (q : Fin 2048) (h : Fin 1024) (k : Fin 2048) : ridx_main_v26 (ix3 g q h) k = ix3 g k h :=
  funext fun a => by match a with | ⟨0, _⟩ => rfl | ⟨1, _⟩ => rfl | ⟨2, _⟩ => rfl

/-! ## The three projections -/

theorem q_eq (x0 : (⟨S8x2048x1024, .f32⟩ : BufTy).Contents (Elt Ideal)) (x3 : (⟨S1024x1024, .f32⟩ : BufTy).Contents (Elt Ideal)) (x4 : (⟨S1024, .f32⟩ : BufTy).Contents (Elt Ideal)) (g : Fin 8) (s : Fin 2048) (o : Fin 1024) :
    val_main_v3 (F := Ideal) x0 x3 x4 (ix3 g s o) = Attn.proj x0 x3 x4 g s o := by
  rw [val_main_v3_apply, val_main_v0_apply, val_main_v2_apply, val_main_v1_apply, bidx]
  simp only [lidx0, ridx0]
  rfl

theorem k_eq (x1 : (⟨S8x2048x1024, .f32⟩ : BufTy).Contents (Elt Ideal)) (x5 : (⟨S1024x1024, .f32⟩ : BufTy).Contents (Elt Ideal)) (x6 : (⟨S1024, .f32⟩ : BufTy).Contents (Elt Ideal)) (g : Fin 8) (s : Fin 2048) (o : Fin 1024) :
    val_main_v7 (F := Ideal) x1 x5 x6 (ix3 g s o) = Attn.proj x1 x5 x6 g s o := by
  rw [val_main_v7_apply, val_main_v4_apply, val_main_v6_apply, val_main_v5_apply, bidx']
  simp only [lidx4, ridx4]
  rfl

theorem v_eq (x2 : (⟨S8x2048x1024, .f32⟩ : BufTy).Contents (Elt Ideal)) (x7 : (⟨S1024x1024, .f32⟩ : BufTy).Contents (Elt Ideal)) (x8 : (⟨S1024, .f32⟩ : BufTy).Contents (Elt Ideal)) (g : Fin 8) (s : Fin 2048) (o : Fin 1024) :
    val_main_v11 (F := Ideal) x2 x7 x8 (ix3 g s o) = Attn.proj x2 x7 x8 g s o := by
  rw [val_main_v11_apply, val_main_v8_apply, val_main_v10_apply, val_main_v9_apply, bidx'']
  simp only [lidx8, ridx8]
  rfl

/-! ## The scores, their maximum, the exponentials and their sum -/

/-- The scaled score of key `s` against query `q`. -/
abbrev sc (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) : EReal :=
  Attn.scoreOf (Attn.proj x1 x5 x6 g s) (Attn.proj x0 x3 x4 g q)

theorem sc_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) :
    val_main_v14 (F := Ideal) x0 x1 x3 x4 x5 x6 (ix3 g s q) = sc x0 x1 x3 x4 x5 x6 g s q := by
  rw [val_main_v14_apply, val_main_v12_apply, val_main_v13_apply, val_main_cst_apply]
  simp only [lidx12, ridx12, k_eq, q_eq]
  rfl

/-- The reduce with a maximum body over the key axis is the fold of `max` from `-∞` over the keys. -/
theorem mx_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (q : Fin 2048) :
    val_main_v15 (F := Ideal) x0 x1 x3 x4 x5 x6 (ix2 g q) = Attn.colMax (fun s => sc x0 x1 x3 x4 x5 x6 g s q) := by
  unfold val_main_v15
  rw [Host.reduce_eq_fold_single FloatOps.maximumf _ _ reducesTo_S8x2048x2048_S8x2048_d1 (by decide) h_S_]
  have hf : (val_main_v14 (F := Ideal) x0 x1 x3 x4 x5 x6 ∘ (by decide : S8x2048x2048.Reduces [1] S8x2048).lift (ix2 g q))
      = fun s : Fin 2048 => sc x0 x1 x3 x4 x5 x6 g s q := funext fun k =>
    (congrArg (val_main_v14 (F := Ideal) x0 x1 x3 x4 x5 x6)
      (funext fun a => Fin.ext (by match a with | ⟨0, _⟩ => rfl | ⟨1, _⟩ => rfl | ⟨2, _⟩ => rfl))).trans
      (sc_eq x0 x1 x3 x4 x5 x6 g k q)
  rw [hf]
  rfl

theorem mxb_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) :
    val_main_v19 (F := Ideal) x0 x1 x3 x4 x5 x6 (ix3 g s q) = Attn.colMax (fun s => sc x0 x1 x3 x4 x5 x6 g s q) := by
  rw [val_main_v19_apply, val_main_v18_apply, midx, val_main_v17_apply, val_main_v16_apply, val_main_cst_1_apply, mx_eq]
  exact Attn.max_negInf _

/-- The exponential of a score less the column's maximum. -/
abbrev ex (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) : EReal :=
  Ideal.exp (sc x0 x1 x3 x4 x5 x6 g s q - Attn.colMax (fun s => sc x0 x1 x3 x4 x5 x6 g s q))

theorem ex_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) :
    val_main_v21 (F := Ideal) x0 x1 x3 x4 x5 x6 (ix3 g s q) = ex x0 x1 x3 x4 x5 x6 g s q := by
  rw [val_main_v21_apply, val_main_v20_apply, sc_eq, mxb_eq]
  rfl

theorem sum_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) :
    val_main_v24 (F := Ideal) x0 x1 x3 x4 x5 x6 (ix3 g s q) = ∑ s' : Fin 2048, ex x0 x1 x3 x4 x5 x6 g s' q := by
  rw [val_main_v24_apply, val_main_v23_apply, sidx, val_main_v22_apply, val_main_cst_2_apply]
  simp only [idx22, ex_eq]
  show Ideal.ofBits .f32 0x00000000#32 + _ = _
  rw [Ideal.ofBits_zero_f32, zero_add]

/-! ## The two results -/

theorem attn_eq (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (g : Fin 8) (s q : Fin 2048) :
    val_main_v25 (F := Ideal) x0 x1 x3 x4 x5 x6 (ix3 g s q) = Attn.attnAt x0 x1 x3 x4 x5 x6 g s q := by
  rw [val_main_v25_apply, ex_eq, sum_eq]
  rfl

theorem attn_arr (x0 x1 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) : val_main_v25 (F := Ideal) x0 x1 x3 x4 x5 x6 = Attn.attnArr x0 x1 x3 x4 x5 x6 := by
  funext i
  obtain ⟨g, s, q, rfl⟩ : ∃ (g : Fin 8) (s q : Fin 2048), i = ix3 g s q := ⟨i 0, i 1, i 2, eq_ix3 i⟩
  exact attn_eq x0 x1 x3 x4 x5 x6 g s q

theorem ctx_eq (x0 x1 x2 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (g : Fin 8) (q : Fin 2048) (h : Fin 1024) :
    val_main_v26 (F := Ideal) x0 x1 x2 x3 x4 x5 x6 x7 x8 (ix3 g q h) = Attn.ctxAt x0 x1 x2 x3 x4 x5 x6 x7 x8 g q h := by
  rw [val_main_v26_apply]
  simp only [lidx26, ridx26, attn_eq, v_eq]
  rfl

theorem ctx_arr (x0 x1 x2 : (⟨S8x2048x1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) : val_main_v26 (F := Ideal) x0 x1 x2 x3 x4 x5 x6 x7 x8 = Attn.ctxArr x0 x1 x2 x3 x4 x5 x6 x7 x8 := by
  funext i
  obtain ⟨g, q, h, rfl⟩ : ∃ (g : Fin 8) (q : Fin 2048) (h : Fin 1024), i = ix3 g q h := ⟨i 0, i 1, i 2, eq_ix3 i⟩
  exact ctx_eq x0 x1 x2 x3 x4 x5 x6 x7 x8 g q h

end Cert.ReferenceIdeal.RefValue

end
-- ==== Proof.lean ====
/-
  Single-head scaled-dot attention with fused projections against its plain reference: the certificate's claims.

  The kernel runs an 8 × 8 grid, a batch and a tile of 256 queries per point. At a batch's first tile it projects the
  batch's 2048 keys and values through their linear layers into two buffers it keeps for the batch's seven later
  tiles; at every tile it projects the tile's queries, scores them against the kept keys, takes the softmax over the
  keys column by column, and multiplies the weights into the kept values. The reference projects whole arrays, scores
  every query against every key of its batch, applies the softmax along the key axis and contracts with the values.
  Read over the extended reals, where a change of float format is the identity and a sum has no order, both programs
  compute, entry by entry, the same two functions of the nine argument arrays: the attention weights and the context.
  No entry needs more than re-indexing, the identity `max (-∞) x = x` and `0 + x = x`, so the precondition is not used
  beyond the frames.
-/
import proofs.«115553_j50173807952573_2_alg».proof.Defs
import proofs.«115553_j50173807952573_2_alg».proof.Proof.Gen.Kernel
import proofs.«115553_j50173807952573_2_alg».proof.Proof.Gen.Kernel.Skeleton
import proofs.«115553_j50173807952573_2_alg».proof.Proof.Gen.Kernel.Launch
import proofs.«115553_j50173807952573_2_alg».proof.Proof.Gen.Kernel.Points
import proofs.«115553_j50173807952573_2_alg».proof.Proof.Gen.Kernel.Frame
import proofs.«115553_j50173807952573_2_alg».proof.Proof.Gen.KernelIdeal
import proofs.«115553_j50173807952573_2_alg».proof.Proof.Gen.KernelIdeal.Skeleton
import proofs.«115553_j50173807952573_2_alg».proof.Proof.Gen.KernelIdeal.Launch
import proofs.«115553_j50173807952573_2_alg».proof.Proof.Gen.KernelIdeal.Points
import proofs.«115553_j50173807952573_2_alg».proof.Proof.Gen.KernelIdeal.Frame
import proofs.«115553_j50173807952573_2_alg».proof.Proof.Gen.ReferenceIdeal
import proofs.«115553_j50173807952573_2_alg».proof.Proof.Gen.Pre_finite_inputs
import proofs.«115553_j50173807952573_2_alg».proof.Proof.Gen.KernelIdeal.Value
import proofs.«115553_j50173807952573_2_alg».proof.Proof.Gen.ReferenceIdeal.Run
import proofs.«115553_j50173807952573_2_alg».proof.Proof.Gen.ReferenceIdeal.Read
import proofs.«115553_j50173807952573_2_alg».proof.Proof.KernelValue
import proofs.«115553_j50173807952573_2_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both idealized programs end with the context and the attention weights of arguments that agree. -/
theorem algebraic : Cert.algebraic_KernelIdeal_ReferenceIdeal := by
  intro m ρ m' ρ' _ hagree
  refine ⟨fun c => Cert.KernelIdeal.KValue.ctxG m c, fun c => Cert.KernelIdeal.KValue.attnG m c,
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8⟩ := hagree c
    rw [(h c).1, Cert.ReferenceIdeal.Read.val_main_v26_eq, Cert.ReferenceIdeal.RefValue.ctx_arr, a0, a1, a2, a3, a4, a5, a6, a7, a8]
    rfl
  · obtain ⟨a0, a1, a2, a3, a4, a5, a6, a7, a8⟩ := hagree c
    rw [(h c).2.1, Cert.ReferenceIdeal.Read.val_main_v25_eq, Cert.ReferenceIdeal.RefValue.attn_arr, a0, a1, a3, a4, a5, a6]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
